-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S64x1024 : Shape := ⟨2, ![64, 1024]⟩
abbrev S2048x10 : Shape := ⟨2, ![2048, 10]⟩
abbrev S10 : Shape := ⟨1, ![10]⟩
abbrev S10x1 : Shape := ⟨2, ![10, 1]⟩
abbrev S1 : Shape := ⟨1, ![1]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S2048x10 : S_.BroadcastsInDim S2048x10 (![] : Fin 0 → Fin S2048x10.rank)
  reducesTo_S2048x10_S_d0_1 : S2048x10.ReducesTo [0, 1] S_
  bcast_S_S10 : S_.BroadcastsInDim S10 (![] : Fin 0 → Fin S10.rank)
  reducesTo_S10_S_d0 : S10.ReducesTo [0] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S10x1 .f32) (main_arg5 : FVec F S1 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S10x1 .f32 := Host.absf main_arg4
  let main_cst_6 : FVec F S_ .f32 := constant S_ .f32 0x7F800000#32
  let main_v20 : FVec F S10x1 .f32 := broadcastInDim S10x1 ![] bcast_S_S10x1 main_cst_6
  let main_v21 : IVec S10x1 1 := cmpf .olt main_v19 main_v20
  let main_c_7 : IVec S_ 1 := constantI S_ 1 1#1
  let main_v22 : IVec S_ 1 := (fun x v => Host.reduce IntOp.andi x v reducesTo_S10x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S64x512x1024 .f32) (main_arg1 : FVec F S64x1024 .f32) (main_arg2 : FVec F S2048x10 .f32) (main_arg3 : FVec F S10 .f32) (main_arg4 : FVec F S10x1 .f32) (main_arg5 : FVec F S1 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S2048x10 .f32 := Host.absf main_arg2
  let main_cst_2 : FVec F S_ .f32 := constant S_ .f32 0x7F800000#32
  let main_v10 : FVec F S2048x10 .f32 := broadcastInDim S2048x10 ![] bcast_S_S2048x10 main_cst_2
  let main_v11 : IVec S2048x10 1 := cmpf .olt main_v9 main_v10
  let main_c_3 : IVec S_ 1 := constantI S_ 1 1#1
  let main_v12 : IVec S_ 1 := (fun x v => Host.reduce IntOp.andi x v reducesTo_S2048x10_S_d0_1 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg4 main_arg5 main_v13 main_v16
-- ==== Kernel.lean ====
abbrev S64x512x1024 : Shape := ⟨3, ![64, 512, 1024]⟩
abbrev S64x1024 : Shape := ⟨2, ![64, 1024]⟩
abbrev S2048x10 : Shape := ⟨2, ![2048, 10]⟩
abbrev S10 : Shape := ⟨1, ![10]⟩
abbrev S10x1 : Shape := ⟨2, ![10, 1]⟩
abbrev S1 : Shape := ⟨1, ![1]⟩
abbrev S1024x10 : Shape := ⟨2, ![1024, 10]⟩
abbrev S64x1x1024 : Shape := ⟨3, ![64, 1, 1024]⟩
abbrev S64x4x128 : Shape := ⟨3, ![64, 4, 128]⟩
abbrev S4x512x1024 : Shape := ⟨3, ![4, 512, 1024]⟩
abbrev S4x1x1024 : Shape := ⟨3, ![4, 1, 1024]⟩
abbrev S4x4x128 : Shape := ⟨3, ![4, 4, 128]⟩
abbrev S2048x1024 : Shape := ⟨2, ![2048, 1024]⟩
abbrev S4x1024 : Shape := ⟨2, ![4, 1024]⟩
abbrev S4x512x10 : Shape := ⟨3, ![4, 512, 10]⟩
abbrev S4x10 : Shape := ⟨2, ![4, 10]⟩
abbrev S4x1x10 : Shape := ⟨3, ![4, 1, 10]⟩
abbrev S1x1x10 : Shape := ⟨3, ![1, 1, 10]⟩
abbrev S2048x1 : Shape := ⟨2, ![2048, 1]⟩
abbrev S4x512x1 : Shape := ⟨3, ![4, 512, 1]⟩
abbrev S1x1x1 : Shape := ⟨3, ![1, 1, 1]⟩
abbrev S4x1 : Shape := ⟨2, ![4, 1]⟩
abbrev S4x1x1 : Shape := ⟨3, ![4, 1, 1]⟩
abbrev S64x512x1 : Shape := ⟨3, ![64, 512, 1]⟩

abbrev nBuf : Space → Nat
  | .hbm => 15
  | .vmem => 13
  | .smem => 0
  | _ => 0

abbrev bufTy : (tb : Table) → Fin (tcTables nBuf tb) → BufTy
  | .hbm, ⟨0, _⟩ => ⟨S64x512x1024, .f32⟩
  | .hbm, ⟨1, _⟩ => ⟨S64x1024, .f32⟩
  | .hbm, ⟨2, _⟩ => ⟨S2048x10, .f32⟩
  | .hbm, ⟨3, _⟩ => ⟨S10, .f32⟩
  | .hbm, ⟨4, _⟩ => ⟨S10x1, .f32⟩
  | .hbm, ⟨5, _⟩ => ⟨S1, .f32⟩
  | .hbm, ⟨6, _⟩ => ⟨S1024x10, .f32⟩
  | .hbm, ⟨7, _⟩ => ⟨S1024x10, .bf16⟩
  | .hbm, ⟨8, _⟩ => ⟨S1024x10, .f32⟩
  | .hbm, ⟨9, _⟩ => ⟨S1024x10, .bf16⟩
  | .hbm, ⟨10, _⟩ => ⟨S10x1, .bf16⟩
  | .hbm, ⟨11, _⟩ => ⟨S64x1x1024, .f32⟩
  | .hbm, ⟨12, _⟩ => ⟨S64x1x1024, .f32⟩
  | .hbm, ⟨13, _⟩ => ⟨S64x4x128, .f32⟩
  | .hbm, ⟨14, _⟩ => ⟨S64x512x1, .f32⟩
  | .local _ .vmem, ⟨0, _⟩ => ⟨S4x512x1024, .f32⟩
  | .local _ .vmem, ⟨1, _⟩ => ⟨S4x512x1024, .f32⟩
  | .local _ .vmem, ⟨2, _⟩ => ⟨S4x1x1024, .f32⟩
  | .local _ .vmem, ⟨3, _⟩ => ⟨S4x1x1024, .f32⟩
  | .local _ .vmem, ⟨4, _⟩ => ⟨S1024x10, .bf16⟩
  | .local _ .vmem, ⟨5, _⟩ => ⟨S1024x10, .bf16⟩
  | .local _ .vmem, ⟨6, _⟩ => ⟨S10, .f32⟩
  | .local _ .vmem, ⟨7, _⟩ => ⟨S10x1, .bf16⟩
  | .local _ .vmem, ⟨8, _⟩ => ⟨S1, .f32⟩
  | .local _ .vmem, ⟨9, _⟩ => ⟨S4x1x1024, .f32⟩
  | .local _ .vmem, ⟨10, _⟩ => ⟨S4x1x1024, .f32⟩
  | .local _ .vmem, ⟨11, _⟩ => ⟨S4x4x128, .f32⟩
  | .local _ .vmem, ⟨12, _⟩ => ⟨S4x4x128, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x10 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x10 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2048x10_S1024x10_0_0 : S2048x10.Slices ![0, 0] S1024x10
  bitsLt_bf16_f32 : FTy.bits .bf16 < FTy.bits .f32
  slices_S2048x10_S1024x10_1024_0 : S2048x10.Slices ![1024, 0] S1024x10
  shapeCasts_S64x1024_S64x1x1024 : S64x1024.ShapeCasts S64x1x1024
  inb_S4x512x1024_S4x512x1024_0_0_0 : ∀ a, (![0, 0, 0] : Fin 3 → Nat) a + S4x512x1024.size a ≤ S4x512x1024.size a
  h_S4x512x1024 : 0 < S4x512x1024.numel
  shapeCasts_S4x512x1024_S2048x1024 : S4x512x1024.ShapeCasts S2048x1024
  inb_S4x1x1024_S4x1x1024_0_0_0 : ∀ a, (![0, 0, 0] : Fin 3 → Nat) a + S4x1x1024.size a ≤ S4x1x1024.size a
  h_S4x1x1024 : 0 < S4x1x1024.numel
  shapeCasts_S4x1x1024_S4x1x1024 : S4x1x1024.ShapeCasts S4x1x1024
  shapeCasts_S4x1x1024_S4x1024 : S4x1x1024.ShapeCasts S4x1024
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  inb_S10_S10_0 : ∀ a, (![0] : Fin 1 → Nat) a + S10.size a ≤ S10.size a
  h_S10 : 0 < S10.numel
  inb_S10x1_S10x1_0_0 : ∀ a, (![0, 0] : Fin 2 → Nat) a + S10x1.size a ≤ S10x1.size a
  h_S10x1 : 0 < S10x1.numel
  shapeCasts_S10x1_S10x1 : S10x1.ShapeCasts S10x1
  inb_S1_S1_0 : ∀ a, (![0] : Fin 1 → Nat) a + S1.size a ≤ S1.size a
  h_S1 : 0 < S1.numel
  shapeCasts_S2048x10_S4x512x10 : S2048x10.ShapeCasts S4x512x10
  shapeCasts_S4x10_S4x1x10 : S4x10.ShapeCasts S4x1x10
  broadcasts_S4x1x10_S4x512x10 : S4x1x10.Broadcasts S4x512x10
  shapeCasts_S10_S1x1x10 : S10.ShapeCasts S1x1x10
  broadcasts_S1x1x10_S4x512x10 : S1x1x10.Broadcasts S4x512x10
  shapeCasts_S4x512x10_S2048x10 : S4x512x10.ShapeCasts S2048x10
  shapeCasts_S2048x1_S4x512x1 : S2048x1.ShapeCasts S4x512x1
  shapeCasts_S1_S1x1x1 : S1.ShapeCasts S1x1x1
  broadcasts_S1x1x1_S4x512x1 : S1x1x1.Broadcasts S4x512x1
  reduces_S4x512x1_S4x1 : S4x512x1.Reduces [1] S4x1
  shapeCasts_S4x1_S4x1x1 : S4x1.ShapeCasts S4x1x1
  broadcasts_S4x1x1_S4x512x1 : S4x1x1.Broadcasts S4x512x1
  broadcasts_S4x512x1_S4x512x1024 : S4x512x1.Broadcasts S4x512x1024
  reduces_S4x512x1024_S4x1024 : S4x512x1024.Reduces [1] S4x1024
  shapeCasts_S4x1024_S4x1x1024 : S4x1024.ShapeCasts S4x1x1024
  shapeCasts_S4x512x1_S4x4x128 : S4x512x1.ShapeCasts S4x4x128
  inb_S4x4x128_S4x4x128_0_0_0 : ∀ a, (![0, 0, 0] : Fin 3 → Nat) a + S4x4x128.size a ≤ S4x4x128.size a
  h_S4x4x128 : 0 < S4x4x128.numel
  shapeCasts_S64x4x128_S64x512x1 : S64x4x128.ShapeCasts S64x512x1
  dot_S2048x1024_S1024x10_S2048x10_1_0_0_1_n_n_wf : DotDims.WF S2048x1024 S1024x10 S2048x10 [1] [0] [0] [1] [] []
  dot_S4x1024_S1024x10_S4x10_1_0_0_1_n_n_wf : DotDims.WF S4x1024 S1024x10 S4x10 [1] [0] [0] [1] [] []
  dot_S2048x10_S10x1_S2048x1_1_0_0_1_n_n_wf : DotDims.WF S2048x10 S10x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1024.size a ≤ S64x512x1024.size a
  hwx0_0 : ∀ i : grid0.Coords, EltTy.bits .f32 = 32 ∨ (Rect.block (s := S64x512x1024) S4x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x1024.size a ≤ S64x1x1024.size a
  hwx0_1 : ∀ i : grid0.Coords, EltTy.bits .f32 = 32 ∨ (Rect.block (s := S64x1x1024) S4x1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x10.size a ≤ S1024x10.size a
  hwx0_2 : ∀ i : grid0.Coords, EltTy.bits .bf16 = 32 ∨ (Rect.block (s := S1024x10) S1024x10.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x10.size a ≤ S1024x10.size a
  hwx0_3 : ∀ i : grid0.Coords, EltTy.bits .bf16 = 32 ∨ (Rect.block (s := S1024x10) S1024x10.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10.size a ≤ S10.size a
  hwx0_4 : ∀ i : grid0.Coords, EltTy.bits .f32 = 32 ∨ (Rect.block (s := S10) S10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x1.size a ≤ S10x1.size a
  hwx0_5 : ∀ i : grid0.Coords, EltTy.bits .bf16 = 32 ∨ (Rect.block (s := S10x1) S10x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x1x1024.size a ≤ S64x1x1024.size a
  hwx0_7 : ∀ i : grid0.Coords, EltTy.bits .f32 = 32 ∨ (Rect.block (s := S64x1x1024) S4x1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x4x128.size a ≤ S64x4x128.size a
  hwx0_8 : ∀ i : grid0.Coords, EltTy.bits .f32 = 32 ∨ (Rect.block (s := S64x4x128) S4x4x128.size (cc0_transform_8 i) (hinb0_8 i)).WholeWords (EltTy.packing .f32)

variable [Facts₀]

def dot_S2048x1024_S1024x10_S2048x10_1_0_0_1_n_n : DotDims S2048x1024 S1024x10 S2048x10 where
  lhsContracting := [1]
  rhsContracting := [0]
  lhsNonContracting := [0]
  rhsNonContracting := [1]
  lhsBatch := []
  rhsBatch := []
  wf := dot_S2048x1024_S1024x10_S2048x10_1_0_0_1_n_n_wf
def dot_S4x1024_S1024x10_S4x10_1_0_0_1_n_n : DotDims S4x1024 S1024x10 S4x10 where
  lhsContracting := [1]
  rhsContracting := [0]
  lhsNonContracting := [0]
  rhsNonContracting := [1]
  lhsBatch := []
  rhsBatch := []
  wf := dot_S4x1024_S1024x10_S4x10_1_0_0_1_n_n_wf
def dot_S2048x10_S10x1_S2048x1_1_0_0_1_n_n : DotDims S2048x10 S10x1 S2048x1 where
  lhsContracting := [1]
  rhsContracting := [0]
  lhsNonContracting := [0]
  rhsNonContracting := [1]
  lhsBatch := []
  rhsBatch := []
  wf := dot_S2048x10_S10x1_S2048x1_1_0_0_1_n_n_wf

abbrev win0_0 : Pipeline.Window sig grid0 :=
  Pipeline.Window.ofSpec (Memref.whole main_arg0) S4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S10x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S4x1x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S4x4x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S64x1024 : Shape := ⟨2, ![64, 1024]⟩
abbrev S2048x10 : Shape := ⟨2, ![2048, 10]⟩
abbrev S10 : Shape := ⟨1, ![10]⟩
abbrev S10x1 : Shape := ⟨2, ![10, 1]⟩
abbrev S1 : Shape := ⟨1, ![1]⟩
abbrev S64x1x1024 : Shape := ⟨3, ![64, 1, 1024]⟩
abbrev S64x512x2048 : Shape := ⟨3, ![64, 512, 2048]⟩
abbrev S64x512x10 : Shape := ⟨3, ![64, 512, 10]⟩
abbrev S1x1x10 : Shape := ⟨3, ![1, 1, 10]⟩
abbrev S64x512x1 : Shape := ⟨3, ![64, 512, 1]⟩
abbrev S1x1x1 : Shape := ⟨3, ![1, 1, 1]⟩
abbrev S_ : Shape := ⟨0, ![]⟩
abbrev S64x1 : Shape := ⟨2, ![64, 1]⟩
abbrev S64x1x1 : Shape := ⟨3, ![64, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64x1024, .f32⟩
  | .hbm, ⟨2, _⟩ => ⟨S2048x10, .f32⟩
  | .hbm, ⟨3, _⟩ => ⟨S10, .f32⟩
  | .hbm, ⟨4, _⟩ => ⟨S10x1, .f32⟩
  | .hbm, ⟨5, _⟩ => ⟨S1, .f32⟩
  | .hbm, ⟨6, _⟩ => ⟨S64x1x1024, .f32⟩
  | .hbm, ⟨7, _⟩ => ⟨S64x512x1024, .f32⟩
  | .hbm, ⟨8, _⟩ => ⟨S64x512x2048, .f32⟩
  | .hbm, ⟨9, _⟩ => ⟨S64x512x10, .f32⟩
  | .hbm, ⟨10, _⟩ => ⟨S1x1x10, .f32⟩
  | .hbm, ⟨11, _⟩ => ⟨S64x512x10, .f32⟩
  | .hbm, ⟨12, _⟩ => ⟨S64x512x10, .f32⟩
  | .hbm, ⟨13, _⟩ => ⟨S64x512x10, .f32⟩
  | .hbm, ⟨14, _⟩ => ⟨S64x512x1, .f32⟩
  | .hbm, ⟨15, _⟩ => ⟨S1x1x1, .f32⟩
  | .hbm, ⟨16, _⟩ => ⟨S64x512x1, .f32⟩
  | .hbm, ⟨17, _⟩ => ⟨S64x512x1, .f32⟩
  | .hbm, ⟨18, _⟩ => ⟨S_, .f32⟩
  | .hbm, ⟨19, _⟩ => ⟨S64x512x1, .f32⟩
  | .hbm, ⟨20, _⟩ => ⟨S64x512x1, .f32⟩
  | .hbm, ⟨21, _⟩ => ⟨S_, .f32⟩
  | .hbm, ⟨22, _⟩ => ⟨S64x1, .f32⟩
  | .hbm, ⟨23, _⟩ => ⟨S_, .f32⟩
  | .hbm, ⟨24, _⟩ => ⟨S64x1, .f32⟩
  | .hbm, ⟨25, _⟩ => ⟨S64x1, .f32⟩
  | .hbm, ⟨26, _⟩ => ⟨S64x1x1, .f32⟩
  | .hbm, ⟨27, _⟩ => ⟨S64x512x1, .f32⟩
  | .hbm, ⟨28, _⟩ => ⟨S64x512x1, .f32⟩
  | .hbm, ⟨29, _⟩ => ⟨S64x512x1, .f32⟩
  | .hbm, ⟨30, _⟩ => ⟨S_, .f32⟩
  | .hbm, ⟨31, _⟩ => ⟨S64x1, .f32⟩
  | .hbm, ⟨32, _⟩ => ⟨S64x1x1, .f32⟩
  | .hbm, ⟨33, _⟩ => ⟨S64x512x1, .f32⟩
  | .hbm, ⟨34, _⟩ => ⟨S64x512x1, .f32⟩
  | .hbm, ⟨35, _⟩ => ⟨S64x512x1024, .f32⟩
  | .hbm, ⟨36, _⟩ => ⟨S64x512x1024, .f32⟩
  | .hbm, ⟨37, _⟩ => ⟨S_, .f32⟩
  | .hbm, ⟨38, _⟩ => ⟨S64x1024, .f32⟩
  | .hbm, ⟨39, _⟩ => ⟨S64x1x1024, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S64x1024_S64x1x1024_0_2 : S64x1024.BroadcastsInDim S64x1x1024 (![0, 2] : Fin 2 → Fin S64x1x1024.rank)
  bcast_S64x1x1024_S64x512x1024_0_1_2 : S64x1x1024.BroadcastsInDim S64x512x1024 (![0, 1, 2] : Fin 3 → Fin S64x512x1024.rank)
  concatenates_S64x512x1024_S64x512x1024_S64x512x2048_d2 : Shape.Concatenates [S64x512x1024, S64x512x1024] S64x512x2048 2
  bcast_S10_S1x1x10_2 : S10.BroadcastsInDim S1x1x10 (![2] : Fin 1 → Fin S1x1x10.rank)
  bcast_S1x1x10_S64x512x10_0_1_2 : S1x1x10.BroadcastsInDim S64x512x10 (![0, 1, 2] : Fin 3 → Fin S64x512x10.rank)
  bcast_S1_S1x1x1_2 : S1.BroadcastsInDim S1x1x1 (![2] : Fin 1 → Fin S1x1x1.rank)
  bcast_S1x1x1_S64x512x1_0_1_2 : S1x1x1.BroadcastsInDim S64x512x1 (![0, 1, 2] : Fin 3 → Fin S64x512x1.rank)
  bcast_S_S64x512x1 : S_.BroadcastsInDim S64x512x1 (![] : Fin 0 → Fin S64x512x1.rank)
  reducesTo_S64x512x1_S64x1_d1 : S64x512x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x512x1_0_1_2 : S64x1x1.BroadcastsInDim S64x512x1 (![0, 1, 2] : Fin 3 → Fin S64x512x1.rank)
  bcast_S64x512x1_S64x512x1024_0_1_2 : S64x512x1.BroadcastsInDim S64x512x1024 (![0, 1, 2] : Fin 3 → Fin S64x512x1024.rank)
  reducesTo_S64x512x1024_S64x1024_d1 : S64x512x1024.ReducesTo [1] S64x1024
  dot_S64x512x2048_S2048x10_S64x512x10_2_0_01_1_n_n_wf : DotDims.WF S64x512x2048 S2048x10 S64x512x10 [2] [0] [0, 1] [1] [] []
  dot_S64x512x10_S10x1_S64x512x1_2_0_01_1_n_n_wf : DotDims.WF S64x512x10 S10x1 S64x512x1 [2] [0] [0, 1] [1] [] []

variable [Facts₀]

def dot_S64x512x2048_S2048x10_S64x512x10_2_0_01_1_n_n : DotDims S64x512x2048 S2048x10 S64x512x10 where
  lhsContracting := [2]
  rhsContracting := [0]
  lhsNonContracting := [0, 1]
  rhsNonContracting := [1]
  lhsBatch := []
  rhsBatch := []
  wf := dot_S64x512x2048_S2048x10_S64x512x10_2_0_01_1_n_n_wf
def dot_S64x512x10_S10x1_S64x512x1_2_0_01_1_n_n : DotDims S64x512x10 S10x1 S64x512x1 where
  lhsContracting := [2]
  rhsContracting := [0]
  lhsNonContracting := [0, 1]
  rhsNonContracting := [1]
  lhsBatch := []
  rhsBatch := []
  wf := dot_S64x512x10_S10x1_S64x512x1_2_0_01_1_n_n_wf

class Facts : Prop extends Facts₀ where

variable [Facts]
-- ==== Proof.Spec.lean ====
/-
  Additive attention over one batch row, as plain functions on the extended reals.

  For one batch row with annotations `a t k` (512 time steps, 1024 features) and a previous state `s k`:
  the hidden layer is `tanh (Σ_k a t k · wa k u + Σ_k s k · wb k u + b1 u)` (the dense layer over the concatenation
  `[a t, s]`, split at the seam of the concatenation), the score is `relu (Σ_u hidden t u · w2 u + b2)`, the attention
  weight is the softmax of the scores over time (shifted by their maximum), and the context vector is the
  weights' combination of the annotations. Both programs compute these; they differ in how they arrange the
  sums and the arrays.
-/
import Idealize.ShloMosaic.PureOps.Ideal
import Idealize.ShloMosaic.PureOps.Ideal.Laws
import Idealize.ShloMosaic.Lib.ValueIdx
import Mathlib.Data.Finset.Fold

noncomputable section

namespace Cert.Attn

open Idealize.ShloMosaic Idealize.ShloMosaic.ValueIdx

/-- The f32 pattern of minus infinity, the value a running maximum starts from. -/
abbrev negInf : EReal := Ideal.ofBits .f32 0xFF800000#32
/-- The f32 pattern of zero, the floor of the rectifier. -/
abbrev zero32 : EReal := Ideal.ofBits .f32 0x00000000#32

/-- Hidden unit `u` at time `t`: `tanh` of the dense layer over `[a t, s]`, the sum split at the seam. -/
def hidden (a : Fin 512 → Fin 1024 → EReal) (s : Fin 1024 → EReal) (wa wb : Fin 1024 → Fin 10 → EReal)
    (b1 : Fin 10 → EReal) (t : Fin 512) (u : Fin 10) : EReal :=
  Ideal.tanh ((∑ k : Fin 1024, a t k * wa k u) + (∑ k : Fin 1024, s k * wb k u) + b1 u)

/-- The score at time `t`: the rectified second dense layer. -/
def score (a : Fin 512 → Fin 1024 → EReal) (s : Fin 1024 → EReal) (wa wb : Fin 1024 → Fin 10 → EReal)
    (b1 : Fin 10 → EReal) (w2 : Fin 10 → EReal) (b2 : EReal) (t : Fin 512) : EReal :=
  max ((∑ u : Fin 10, hidden a s wa wb b1 t u * w2 u) + b2) zero32

/-- The largest score of a row (a fold of `max` from minus infinity). -/
def rowMax (e : Fin 512 → EReal) : EReal := (Finset.univ : Finset (Fin 512)).fold max negInf e

/-- `exp` of a score shifted by the row's maximum. -/
def expShift (e : Fin 512 → EReal) (t : Fin 512) : EReal := Ideal.exp (e t - rowMax e)

/-- The attention weight at time `t`: the softmax of the scores over time. -/
def weight (e : Fin 512 → EReal) (t : Fin 512) : EReal := Ideal.div (expShift e t) (∑ t' : Fin 512, expShift e t')

/-- Feature `d` of the context vector: the annotations combined by the attention weights. -/
def context (e : Fin 512 → EReal) (a : Fin 512 → Fin 1024 → EReal) (d : Fin 1024) : EReal :=
  ∑ t : Fin 512, weight e t * a t d

/-- A running maximum that starts from `b` is at least `b`, so taking the maximum with `b` again changes nothing. -/
theorem max_fold_self {ι : Type} (S : Finset ι) (b : EReal) (f : ι → EReal) : max b (S.fold max b f) = S.fold max b f :=
  max_eq_right ((Finset.le_fold_max b).mpr (Or.inl le_rfl))

/-! ## The six arguments as rows -/

/-- Batch row `b` of the annotations. -/
abbrev rowA (A : (⟨3, ![64, 512, 1024]⟩ : Shape).Idx → EReal) (b : Fin 64) : Fin 512 → Fin 1024 → EReal :=
  fun t k => A (ix3 b t k)
/-- Batch row `b` of the previous state. -/
abbrev rowS (S : (⟨2, ![64, 1024]⟩ : Shape).Idx → EReal) (b : Fin 64) : Fin 1024 → EReal := fun k => S (ix2 b k)
/-- The first 1024 rows of the first layer's weights: those that meet the annotations. -/
abbrev w1Top (W : (⟨2, ![2048, 10]⟩ : Shape).Idx → EReal) : Fin 1024 → Fin 10 → EReal :=
  fun k u => W (ix2 ⟨k.val, by omega⟩ u)
/-- The last 1024 rows: those that meet the previous state. -/
abbrev w1Bot (W : (⟨2, ![2048, 10]⟩ : Shape).Idx → EReal) : Fin 1024 → Fin 10 → EReal :=
  fun k u => W (ix2 ⟨1024 + k.val, by omega⟩ u)

/-- The scores of batch row `b`, from the six argument arrays. -/
def scores (A : (⟨3, ![64, 512, 1024]⟩ : Shape).Idx → EReal) (S : (⟨2, ![64, 1024]⟩ : Shape).Idx → EReal)
    (W1 : (⟨2, ![2048, 10]⟩ : Shape).Idx → EReal) (B1 : (⟨1, ![10]⟩ : Shape).Idx → EReal)
    (W2 : (⟨2, ![10, 1]⟩ : Shape).Idx → EReal) (B2 : (⟨1, ![1]⟩ : Shape).Idx → EReal) (b : Fin 64) : Fin 512 → EReal :=
  score (rowA A b) (rowS S b) (w1Top W1) (w1Bot W1) (fun u => B1 (ix1 u)) (fun u => W2 (ix2 u 0)) (B2 (ix1 0))

/-- The context vectors, [64, 1, 1024]. -/
def ctxArr (A : (⟨3, ![64, 512, 1024]⟩ : Shape).Idx → EReal) (S : (⟨2, ![64, 1024]⟩ : Shape).Idx → EReal)
    (W1 : (⟨2, ![2048, 10]⟩ : Shape).Idx → EReal) (B1 : (⟨1, ![10]⟩ : Shape).Idx → EReal)
    (W2 : (⟨2, ![10, 1]⟩ : Shape).Idx → EReal) (B2 : (⟨1, ![1]⟩ : Shape).Idx → EReal) :
    (⟨3, ![64, 1, 1024]⟩ : Shape).Idx → EReal :=
  fun i => context (scores A S W1 B1 W2 B2 (i 0)) (rowA A (i 0)) (i 2)

/-- The attention weights, [64, 512, 1]. -/
def attnArr (A : (⟨3, ![64, 512, 1024]⟩ : Shape).Idx → EReal) (S : (⟨2, ![64, 1024]⟩ : Shape).Idx → EReal)
    (W1 : (⟨2, ![2048, 10]⟩ : Shape).Idx → EReal) (B1 : (⟨1, ![10]⟩ : Shape).Idx → EReal)
    (W2 : (⟨2, ![10, 1]⟩ : Shape).Idx → EReal) (B2 : (⟨1, ![1]⟩ : Shape).Idx → EReal) :
    (⟨3, ![64, 512, 1]⟩ : Shape).Idx → EReal :=
  fun i => weight (scores A S W1 B1 W2 B2 (i 0)) (i 1)

/-- The same weights laid out lane-dense, [64, 4, 128]: time step `128 q + l` at `(q, l)`. -/
def attnTiles (A : (⟨3, ![64, 512, 1024]⟩ : Shape).Idx → EReal) (S : (⟨2, ![64, 1024]⟩ : Shape).Idx → EReal)
    (W1 : (⟨2, ![2048, 10]⟩ : Shape).Idx → EReal) (B1 : (⟨1, ![10]⟩ : Shape).Idx → EReal)
    (W2 : (⟨2, ![10, 1]⟩ : Shape).Idx → EReal) (B2 : (⟨1, ![1]⟩ : Shape).Idx → EReal) :
    (⟨3, ![64, 4, 128]⟩ : Shape).Idx → EReal :=
  fun i => weight (scores A S W1 B1 W2 B2 (i 0)) ⟨128 * (i 1).val + (i 2).val, by have := (i 1).isLt; have := (i 2).isLt; simp at *; omega⟩

end Cert.Attn

end
-- ==== Proof.RefValue.lean ====
/-
  The reference, read entry by entry at the ideal values: its two results are the per-row functions of
  `Cert.Attn` of the argument arrays' rows.

  The reference concatenates each annotation with the (repeated) previous state and contracts the 2048 joined
  features with the first layer's weights; the sum over the joined axis is the sum over the annotation's 1024
  features plus the sum over the state's 1024 features. Everything after that is the same arithmetic as the
  per-row functions, with the row maximum taken by a fold and each sum started from zero.
-/
import proofs.«115769_j76854144795156_2_alg».proof.Proof.Gen.ReferenceIdeal.Read
import proofs.«115769_j76854144795156_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

variable (x0 : (⟨S64x512x1024, .f32⟩ : BufTy).Contents (Elt Ideal)) (x1 : (⟨S64x1024, .f32⟩ : BufTy).Contents (Elt Ideal))
  (x2 : (⟨S2048x10, .f32⟩ : BufTy).Contents (Elt Ideal)) (x3 : (⟨S10, .f32⟩ : BufTy).Contents (Elt Ideal))
  (x4 : (⟨S10x1, .f32⟩ : BufTy).Contents (Elt Ideal)) (x5 : (⟨S1, .f32⟩ : BufTy).Contents (Elt Ideal))

/-! ## The joined features -/

/-- The first 1024 joined features are the annotation's. -/
theorem joined_top (b : Fin 64) (t : Fin 512) (k : Fin 1024) :
    val_main_v2 (F := Ideal) x0 x1 (ix3 b t (⟨k.val, by omega⟩ : Fin 2048)) = x0 (ix3 b t k) := by
  unfold val_main_v2
  exact concatenate_pair_apply_left (t := S64x512x2048) (s₁ := S64x512x1024) (s₂ := S64x512x1024) (2 : Fin 3) x0
    (val_main_v1 (F := Ideal) x1) _ (ix3 b t (⟨k.val, by omega⟩ : Fin 2048)) rfl (ix3 b t k)
    (fun a => match a with | ⟨0, _⟩ => rfl | ⟨1, _⟩ => rfl | ⟨2, _⟩ => rfl)

/-- The last 1024 are the previous state's, the same at every time step. -/
theorem joined_bot (b : Fin 64) (t : Fin 512) (k : Fin 1024) :
    val_main_v2 (F := Ideal) x0 x1 (ix3 b t (⟨1024 + k.val, by omega⟩ : Fin 2048)) = x1 (ix2 b k) := by
  unfold val_main_v2
  refine (concatenate_pair_apply_right (t := S64x512x2048) (s₁ := S64x512x1024) (s₂ := S64x512x1024) (2 : Fin 3) x0
    (val_main_v1 (F := Ideal) x1) _ (ix3 b t (⟨1024 + k.val, by omega⟩ : Fin 2048)) rfl rfl (ix3 b t k) (fun a ha => ?_) ?_).trans ?_
  · match a with
    | ⟨0, _⟩ => rfl
    | ⟨1, _⟩ => rfl
    | ⟨2, _⟩ => exact absurd rfl ha
  · show k.val + 1024 = 1024 + k.val
    omega
  · rw [val_main_v1_apply, val_main_v0_apply]
    exact congrArg x1 (funext fun a => Fin.ext (by match a with | ⟨0, _⟩ => rfl | ⟨1, _⟩ => rfl))

/-! ## The first dense layer -/

/-- The contraction over the 2048 joined features, split at the seam. -/
theorem dense1_apply (b : Fin 64) (t : Fin 512) (u : Fin 10) :
    val_main_v3 (F := Ideal) x0 x1 x2 (ix3 b t u)
      = (∑ k : Fin 1024, Attn.rowA x0 b t k * Attn.w1Top x2 k u) + ∑ k : Fin 1024, Attn.rowS x1 b k * Attn.w1Bot x2 k u := by
  rw [val_main_v3_apply]
  refine (Fin.sum_univ_add (a := 1024) (b := 1024)
    (fun k => val_main_v2 (F := Ideal) x0 x1 (lidx_main_v3 (ix3 b t u) k) * x2 (ridx_main_v3 (ix3 b t u) k))).trans ?_
  refine congrArg₂ (· + ·) (Finset.sum_congr rfl fun k _ => ?_) (Finset.sum_congr rfl fun k _ => ?_)
  · have e : lidx_main_v3 (ix3 b t u) (Fin.castAdd 1024 k) = ix3 b t (⟨k.val, by omega⟩ : Fin 2048) :=
      funext fun a => Fin.ext (by match a with | ⟨0, _⟩ => rfl | ⟨1, _⟩ => rfl | ⟨2, _⟩ => rfl)
    have e' : ridx_main_v3 (ix3 b t u) (Fin.castAdd 1024 k) = ix2 (⟨k.val, by omega⟩ : Fin 2048) u :=
      funext fun a => Fin.ext (by match a with | ⟨0, _⟩ => rfl | ⟨1, _⟩ => rfl)
    show val_main_v2 (F := Ideal) x0 x1 (lidx_main_v3 (ix3 b t u) (Fin.castAdd 1024 k)) * x2 (ridx_main_v3 (ix3 b t u) (Fin.castAdd 1024 k)) = _
    rw [e, e', joined_top]
  · have e : lidx_main_v3 (ix3 b t u) (Fin.natAdd 1024 k) = ix3 b t (⟨1024 + k.val, by omega⟩ : Fin 2048) :=
      funext fun a => Fin.ext (by match a with | ⟨0, _⟩ => rfl | ⟨1, _⟩ => rfl | ⟨2, _⟩ => rfl)
    have e' : ridx_main_v3 (ix3 b t u) (Fin.natAdd 1024 k) = ix2 (⟨1024 + k.val, by omega⟩ : Fin 2048) u :=
      funext fun a => Fin.ext (by match a with | ⟨0, _⟩ => rfl | ⟨1, _⟩ => rfl)
    show val_main_v2 (F := Ideal) x0 x1 (lidx_main_v3 (ix3 b t u) (Fin.natAdd 1024 k)) * x2 (ridx_main_v3 (ix3 b t u) (Fin.natAdd 1024 k)) = _
    rw [e, e', joined_bot]

/-- The hidden layer. -/
theorem hidden_apply (b : Fin 64) (t : Fin 512) (u : Fin 10) :
    val_main_v7 (F := Ideal) x0 x1 x2 x3 (ix3 b t u)
      = Attn.hidden (Attn.rowA x0 b) (Attn.rowS x1 b) (Attn.w1Top x2) (Attn.w1Bot x2) (fun u => x3 (ix1 u)) t u := by
  rw [val_main_v7_apply, val_main_v6_apply, dense1_apply, val_main_v5_apply, val_main_v4_apply]
  unfold Attn.hidden
  exact congrArg Ideal.tanh (congrArg₂ (· + ·) rfl
    (congrArg x3 (funext fun a => Fin.ext (by match a with | ⟨0, _⟩ => rfl))))

/-! ## The scores -/

theorem scores_apply (b : Fin 64) (t : Fin 512) (z : Fin 1) :
    val_main_v12 (F := Ideal) x0 x1 x2 x3 x4 x5 (ix3 b t z) = Attn.scores x0 x1 x2 x3 x4 x5 b t := by
  obtain rfl : z = 0 := Subsingleton.elim _ _
  rw [val_main_v12_apply, val_main_v11_apply, val_main_v8_apply, val_main_v10_apply, val_main_v9_apply,
    val_main_call0_v0_apply, val_main_call0_cst_apply]
  unfold Attn.scores Attn.score
  refine congrArg₂ max (congrArg₂ (· + ·) (Finset.sum_congr rfl fun u _ => ?_)
    (congrArg x5 (funext fun a => Fin.ext (by match a with | ⟨0, _⟩ => rfl)))) rfl
  have e : lidx_main_v8 (ix3 b t (0 : Fin 1)) u = ix3 b t u :=
    funext fun a => Fin.ext (by match a with | ⟨0, _⟩ => rfl | ⟨1, _⟩ => rfl | ⟨2, _⟩ => rfl)
  have e' : ridx_main_v8 (ix3 b t (0 : Fin 1)) u = ix2 u (0 : Fin 1) :=
    funext fun a => Fin.ext (by match a with | ⟨0, _⟩ => rfl | ⟨1, _⟩ => rfl)
  rw [e, e', hidden_apply]

/-! ## The softmax over time -/

/-- The row maximum, repeated along time: the fold of `max` from minus infinity over the row's scores (the further
    `max` with minus infinity changes nothing). -/
theorem shift_apply (b : Fin 64) (t : Fin 512) (z : Fin 1) :
    val_main_v17 (F := Ideal) x0 x1 x2 x3 x4 x5 (ix3 b t z) = Attn.rowMax (Attn.scores x0 x1 x2 x3 x4 x5 b) := by
  rw [val_main_v17_apply, val_main_v16_apply, val_main_v15_apply, val_main_v14_apply, val_main_cst_0_apply]
  unfold val_main_v13
  rw [Host.reduce_eq_fold_single FloatOps.maximumf _ _ reducesTo_S64x512x1_S64x1_d1 (by decide) h_S_]
  refine (Attn.max_fold_self _ _ _).trans ?_
  unfold Attn.rowMax
  refine congrArg (Finset.fold max Attn.negInf · Finset.univ) (funext fun k => ?_)
  exact (congrArg (val_main_v12 (F := Ideal) x0 x1 x2 x3 x4 x5)
    (funext fun a => Fin.ext (by match a with | ⟨0, _⟩ => rfl | ⟨1, _⟩ => rfl | ⟨2, _⟩ => rfl))).trans
      (scores_apply x0 x1 x2 x3 x4 x5 b k 0)

/-- The shifted exponentials. -/
theorem exp_apply (b : Fin 64) (t : Fin 512) (z : Fin 1) :
    val_main_v19 (F := Ideal) x0 x1 x2 x3 x4 x5 (ix3 b t z) = Attn.expShift (Attn.scores x0 x1 x2 x3 x4 x5 b) t := by
  rw [val_main_v19_apply, val_main_v18_apply, scores_apply, shift_apply]
  rfl

/-- The attention weights. -/
theorem weight_apply (b : Fin 64) (t : Fin 512) (z : Fin 1) :
    val_main_v23 (F := Ideal) x0 x1 x2 x3 x4 x5 (ix3 b t z) = Attn.weight (Attn.scores x0 x1 x2 x3 x4 x5 b) t := by
  rw [val_main_v23_apply, val_main_v22_apply, val_main_v21_apply, val_main_v20_apply, val_main_cst_1_apply, exp_apply]
  unfold Attn.weight
  refine congrArg (Ideal.div _) ?_
  refine (congrArg (· + _) Ideal.ofBits_zero_f32).trans ((zero_add _).trans (Finset.sum_congr rfl fun k _ => ?_))
  exact (congrArg (val_main_v19 (F := Ideal) x0 x1 x2 x3 x4 x5)
    (funext fun a => Fin.ext (by match a with | ⟨0, _⟩ => rfl | ⟨1, _⟩ => rfl | ⟨2, _⟩ => rfl))).trans
      (exp_apply x0 x1 x2 x3 x4 x5 b k 0)

/-- The context vectors. -/
theorem context_apply (b : Fin 64) (z : Fin 1) (d : Fin 1024) :
    val_main_v27 (F := Ideal) x0 x1 x2 x3 x4 x5 (ix3 b z d)
      = Attn.context (Attn.scores x0 x1 x2 x3 x4 x5 b) (Attn.rowA x0 b) d := by
  rw [val_main_v27_apply, val_main_v26_apply, val_main_cst_2_apply]
  unfold Attn.context
  refine (congrArg (· + _) Ideal.ofBits_zero_f32).trans ((zero_add _).trans (Finset.sum_congr rfl fun k _ => ?_))
  have e : idx_main_v26 (idx_main_v27 (ix3 b z d)) k = ix3 b k d :=
    funext fun a => Fin.ext (by match a with | ⟨0, _⟩ => rfl | ⟨1, _⟩ => rfl | ⟨2, _⟩ => rfl)
  rw [e, val_main_v25_apply, val_main_v24_apply]
  have e' : idx_main_v24 (ix3 b k d) = ix3 b k (0 : Fin 1) :=
    funext fun a => Fin.ext (by match a with | ⟨0, _⟩ => rfl | ⟨1, _⟩ => rfl | ⟨2, _⟩ => rfl)
  rw [e', weight_apply]
  rfl

/-! ## The two results as arrays -/

theorem attn_eq : val_main_v23 (F := Ideal) x0 x1 x2 x3 x4 x5 = Attn.attnArr x0 x1 x2 x3 x4 x5 := by
  funext i
  obtain ⟨b, t, z, rfl⟩ : ∃ (b : Fin 64) (t : Fin 512) (z : Fin 1), i = ix3 b t z := ⟨i 0, i 1, i 2, eq_ix3 i⟩
  exact weight_apply x0 x1 x2 x3 x4 x5 b t z

theorem ctx_eq : val_main_v27 (F := Ideal) x0 x1 x2 x3 x4 x5 = Attn.ctxArr x0 x1 x2 x3 x4 x5 := by
  funext i
  obtain ⟨b, z, d, rfl⟩ : ∃ (b : Fin 64) (z : Fin 1) (d : Fin 1024), i = ix3 b z d := ⟨i 0, i 1, i 2, eq_ix3 i⟩
  exact context_apply x0 x1 x2 x3 x4 x5 b z d

end Cert.ReferenceIdeal.RefValue

end
-- ==== Proof.KernelMatmul.lean ====
/-
  The kernel body's three matrix products read at an index, at the ideal values: each is the plain sum over the
  contracted axis of the products of the operands' entries (the accumulator is the zero splat).
-/
import proofs.«115769_j76854144795156_2_alg».proof.Proof.Gen.KernelIdeal
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

theorem mm_rows_lhs0 (i : S2048x10.Idx) (q : dot_S2048x1024_S1024x10_S2048x10_1_0_0_1_n_n.contr.Idx) : (dot_S2048x1024_S1024x10_S2048x10_1_0_0_1_n_n.lhsIdx i q 0).val = (i 0).val := by
  unfold DotDims.lhsIdx
  rw [dif_neg (show ¬(0 : Fin S2048x1024.rank) ∈ dot_S2048x1024_S1024x10_S2048x10_1_0_0_1_n_n.lhsBatch by decide), dif_pos (show (0 : Fin S2048x1024.rank) ∈ dot_S2048x1024_S1024x10_S2048x10_1_0_0_1_n_n.lhsNonContracting by decide)]
  rfl
theorem mm_rows_rhs1 (i : S2048x10.Idx) (q : dot_S2048x1024_S1024x10_S2048x10_1_0_0_1_n_n.contr.Idx) : (dot_S2048x1024_S1024x10_S2048x10_1_0_0_1_n_n.rhsIdx i q 1).val = (i 1).val := by
  unfold DotDims.rhsIdx
  rw [dif_neg (show ¬(1 : Fin S1024x10.rank) ∈ dot_S2048x1024_S1024x10_S2048x10_1_0_0_1_n_n.rhsBatch by decide), dif_pos (show (1 : Fin S1024x10.rank) ∈ dot_S2048x1024_S1024x10_S2048x10_1_0_0_1_n_n.rhsNonContracting by decide)]
  rfl

/-- [2048, 1024] × [1024, 10]: entry (r, u) is Σ_k l (r, k) · w (k, u). -/
theorem mm_rows_apply {φ₁ φ₂ : FTy} (l : FVec Ideal S2048x1024 φ₁) (w : FVec Ideal S1024x10 φ₂) (r : Fin 2048) (u : Fin 10) :
    matmul dot_S2048x1024_S1024x10_S2048x10_1_0_0_1_n_n none l w (constant S2048x10 .f32 0x00000000#32) (ix2 r u)
      = ∑ k : Fin 1024, l (ix2 r k) * w (ix2 k u) := by
  simp only [matmul]
  rw [Ideal.matmul_constant_zero_apply, ← Equiv.sum_comp (contrEquiv1 dot_S2048x1024_S1024x10_S2048x10_1_0_0_1_n_n 1024 rfl rfl).symm]
  refine Finset.sum_congr rfl fun k _ => ?_
  have hk := contrEquiv1_symm_val dot_S2048x1024_S1024x10_S2048x10_1_0_0_1_n_n 1024 rfl rfl k
  have el : dot_S2048x1024_S1024x10_S2048x10_1_0_0_1_n_n.lhsIdx (ix2 r u) ((contrEquiv1 dot_S2048x1024_S1024x10_S2048x10_1_0_0_1_n_n 1024 rfl rfl).symm k) = ix2 r k :=
    funext fun a => Fin.ext (by
      match a with
      | ⟨0, _⟩ => exact mm_rows_lhs0 _ _
      | ⟨1, _⟩ => exact (dot_S2048x1024_S1024x10_S2048x10_1_0_0_1_n_n.lhsIdx_val_of_single rfl _ _).trans hk)
  have er : dot_S2048x1024_S1024x10_S2048x10_1_0_0_1_n_n.rhsIdx (ix2 r u) ((contrEquiv1 dot_S2048x1024_S1024x10_S2048x10_1_0_0_1_n_n 1024 rfl rfl).symm k) = ix2 k u :=
    funext fun a => Fin.ext (by
      match a with
      | ⟨0, _⟩ => exact (dot_S2048x1024_S1024x10_S2048x10_1_0_0_1_n_n.rhsIdx_val_of_single rfl _ _).trans hk
      | ⟨1, _⟩ => exact mm_rows_rhs1 _ _)
  rw [el, er]

theorem mm_state_lhs0 (i : S4x10.Idx) (q : dot_S4x1024_S1024x10_S4x10_1_0_0_1_n_n.contr.Idx) : (dot_S4x1024_S1024x10_S4x10_1_0_0_1_n_n.lhsIdx i q 0).val = (i 0).val := by
  unfold DotDims.lhsIdx
  rw [dif_neg (show ¬(0 : Fin S4x1024.rank) ∈ dot_S4x1024_S1024x10_S4x10_1_0_0_1_n_n.lhsBatch by decide), dif_pos (show (0 : Fin S4x1024.rank) ∈ dot_S4x1024_S1024x10_S4x10_1_0_0_1_n_n.lhsNonContracting by decide)]
  rfl
theorem mm_state_rhs1 (i : S4x10.Idx) (q : dot_S4x1024_S1024x10_S4x10_1_0_0_1_n_n.contr.Idx) : (dot_S4x1024_S1024x10_S4x10_1_0_0_1_n_n.rhsIdx i q 1).val = (i 1).val := by
  unfold DotDims.rhsIdx
  rw [dif_neg (show ¬(1 : Fin S1024x10.rank) ∈ dot_S4x1024_S1024x10_S4x10_1_0_0_1_n_n.rhsBatch by decide), dif_pos (show (1 : Fin S1024x10.rank) ∈ dot_S4x1024_S1024x10_S4x10_1_0_0_1_n_n.rhsNonContracting by decide)]
  rfl

/-- [4, 1024] × [1024, 10]: entry (p, u) is Σ_k l (p, k) · w (k, u). -/
theorem mm_state_apply {φ₁ φ₂ : FTy} (l : FVec Ideal S4x1024 φ₁) (w : FVec Ideal S1024x10 φ₂) (p : Fin 4) (u : Fin 10) :
    matmul dot_S4x1024_S1024x10_S4x10_1_0_0_1_n_n none l w (constant S4x10 .f32 0x00000000#32) (ix2 p u)
      = ∑ k : Fin 1024, l (ix2 p k) * w (ix2 k u) := by
  simp only [matmul]
  rw [Ideal.matmul_constant_zero_apply, ← Equiv.sum_comp (contrEquiv1 dot_S4x1024_S1024x10_S4x10_1_0_0_1_n_n 1024 rfl rfl).symm]
  refine Finset.sum_congr rfl fun k _ => ?_
  have hk := contrEquiv1_symm_val dot_S4x1024_S1024x10_S4x10_1_0_0_1_n_n 1024 rfl rfl k
  have el : dot_S4x1024_S1024x10_S4x10_1_0_0_1_n_n.lhsIdx (ix2 p u) ((contrEquiv1 dot_S4x1024_S1024x10_S4x10_1_0_0_1_n_n 1024 rfl rfl).symm k) = ix2 p k :=
    funext fun a => Fin.ext (by
      match a with
      | ⟨0, _⟩ => exact mm_state_lhs0 _ _
      | ⟨1, _⟩ => exact (dot_S4x1024_S1024x10_S4x10_1_0_0_1_n_n.lhsIdx_val_of_single rfl _ _).trans hk)
  have er : dot_S4x1024_S1024x10_S4x10_1_0_0_1_n_n.rhsIdx (ix2 p u) ((contrEquiv1 dot_S4x1024_S1024x10_S4x10_1_0_0_1_n_n 1024 rfl rfl).symm k) = ix2 k u :=
    funext fun a => Fin.ext (by
      match a with
      | ⟨0, _⟩ => exact (dot_S4x1024_S1024x10_S4x10_1_0_0_1_n_n.rhsIdx_val_of_single rfl _ _).trans hk
      | ⟨1, _⟩ => exact mm_state_rhs1 _ _)
  rw [el, er]

theorem mm_out_lhs0 (i : S2048x1.Idx) (q : dot_S2048x10_S10x1_S2048x1_1_0_0_1_n_n.contr.Idx) : (dot_S2048x10_S10x1_S2048x1_1_0_0_1_n_n.lhsIdx i q 0).val = (i 0).val := by
  unfold DotDims.lhsIdx
  rw [dif_neg (show ¬(0 : Fin S2048x10.rank) ∈ dot_S2048x10_S10x1_S2048x1_1_0_0_1_n_n.lhsBatch by decide), dif_pos (show (0 : Fin S2048x10.rank) ∈ dot_S2048x10_S10x1_S2048x1_1_0_0_1_n_n.lhsNonContracting by decide)]
  rfl
theorem mm_out_rhs1 (i : S2048x1.Idx) (q : dot_S2048x10_S10x1_S2048x1_1_0_0_1_n_n.contr.Idx) : (dot_S2048x10_S10x1_S2048x1_1_0_0_1_n_n.rhsIdx i q 1).val = (i 1).val := by
  unfold DotDims.rhsIdx
  rw [dif_neg (show ¬(1 : Fin S10x1.rank) ∈ dot_S2048x10_S10x1_S2048x1_1_0_0_1_n_n.rhsBatch by decide), dif_pos (show (1 : Fin S10x1.rank) ∈ dot_S2048x10_S10x1_S2048x1_1_0_0_1_n_n.rhsNonContracting by decide)]
  rfl

/-- [2048, 10] × [10, 1]: entry (r, z) is Σ_u l (r, u) · w (u, z). -/
theorem mm_out_apply {φ₁ φ₂ : FTy} (l : FVec Ideal S2048x10 φ₁) (w : FVec Ideal S10x1 φ₂) (r : Fin 2048) (z : Fin 1) :
    matmul dot_S2048x10_S10x1_S2048x1_1_0_0_1_n_n none l w (constant S2048x1 .f32 0x00000000#32) (ix2 r z)
      = ∑ k : Fin 10, l (ix2 r k) * w (ix2 k z) := by
  simp only [matmul]
  rw [Ideal.matmul_constant_zero_apply, ← Equiv.sum_comp (contrEquiv1 dot_S2048x10_S10x1_S2048x1_1_0_0_1_n_n 10 rfl rfl).symm]
  refine Finset.sum_congr rfl fun k _ => ?_
  have hk := contrEquiv1_symm_val dot_S2048x10_S10x1_S2048x1_1_0_0_1_n_n 10 rfl rfl k
  have el : dot_S2048x10_S10x1_S2048x1_1_0_0_1_n_n.lhsIdx (ix2 r z) ((contrEquiv1 dot_S2048x10_S10x1_S2048x1_1_0_0_1_n_n 10 rfl rfl).symm k) = ix2 r k :=
    funext fun a => Fin.ext (by
      match a with
      | ⟨0, _⟩ => exact mm_out_lhs0 _ _
      | ⟨1, _⟩ => exact (dot_S2048x10_S10x1_S2048x1_1_0_0_1_n_n.lhsIdx_val_of_single rfl _ _).trans hk)
  have er : dot_S2048x10_S10x1_S2048x1_1_0_0_1_n_n.rhsIdx (ix2 r z) ((contrEquiv1 dot_S2048x10_S10x1_S2048x1_1_0_0_1_n_n 10 rfl rfl).symm k) = ix2 k z :=
    funext fun a => Fin.ext (by
      match a with
      | ⟨0, _⟩ => exact (dot_S2048x10_S10x1_S2048x1_1_0_0_1_n_n.rhsIdx_val_of_single rfl _ _).trans hk
      | ⟨1, _⟩ => exact mm_out_rhs1 _ _)
  rw [el, er]

end Cert.KernelIdeal.Pay

end
-- ==== Proof.KernelLayout.lean ====
/-
  The kernel body's re-layouts read at an index: merging the batch and time axes of a block for the matrix unit
  and splitting them again, unit axes added and dropped, rows and columns broadcast along time or features, and the
  attention weights of a block re-laid lane-dense (time step 128 q + l at (q, l)).
-/
import proofs.«115769_j76854144795156_2_alg».proof.Proof.Gen.KernelIdeal
import Idealize.ShloMosaic.Lib.ValueIdx
import Idealize.ShloMosaic.Lib.Pipeline.Value

noncomputable section

namespace Cert.KernelIdeal.Pay

open Cert.KernelIdeal Idealize.ShloMosaic Idealize.ShloMosaic.ValueIdx

variable {α : Type}

/-- Row 512 p + t of the merged [2048, ·] view, as an index. -/
abbrev mrow (p : Fin 4) (t : Fin 512) : Fin 2048 := ⟨512 * p.val + t.val, by omega⟩
/-- Time step 128 q + l. -/
abbrev tstep (q : Fin 4) (l : Fin 128) : Fin 512 := ⟨128 * q.val + l.val, by omega⟩

/-! ## Batch and time merged, and split again -/

theorem merge_1024 (x : S4x512x1024.Idx → α) (h : S4x512x1024.ShapeCasts S2048x1024) (p : Fin 4) (t : Fin 512) (k : Fin 1024) :
    shapeCast S2048x1024 x h (ix2 (mrow p t) k) = x (ix3 p t k) :=
  shapeCast_apply x h _ _ (by
    rw [Shape.rowMajor_val_three, Shape.rowMajor_val_two]
    show (p.val * 512 + t.val) * 1024 + k.val = (512 * p.val + t.val) * 1024 + k.val
    omega)

theorem merge_10 (x : S4x512x10.Idx → α) (h : S4x512x10.ShapeCasts S2048x10) (p : Fin 4) (t : Fin 512) (u : Fin 10) :
    shapeCast S2048x10 x h (ix2 (mrow p t) u) = x (ix3 p t u) :=
  shapeCast_apply x h _ _ (by
    rw [Shape.rowMajor_val_three, Shape.rowMajor_val_two]
    show (p.val * 512 + t.val) * 10 + u.val = (512 * p.val + t.val) * 10 + u.val
    omega)

theorem split_10 (x : S2048x10.Idx → α) (h : S2048x10.ShapeCasts S4x512x10) (p : Fin 4) (t : Fin 512) (u : Fin 10) :
    shapeCast S4x512x10 x h (ix3 p t u) = x (ix2 (mrow p t) u) :=
  shapeCast_apply x h _ _ (by
    rw [Shape.rowMajor_val_three, Shape.rowMajor_val_two]
    show (512 * p.val + t.val) * 10 + u.val = (p.val * 512 + t.val) * 10 + u.val
    omega)

theorem split_1 (x : S2048x1.Idx → α) (h : S2048x1.ShapeCasts S4x512x1) (p : Fin 4) (t : Fin 512) (z : Fin 1) :
    shapeCast S4x512x1 x h (ix3 p t z) = x (ix2 (mrow p t) z) :=
  shapeCast_apply x h _ _ (by
    rw [Shape.rowMajor_val_three, Shape.rowMajor_val_two]
    show (512 * p.val + t.val) * 1 + z.val = (p.val * 512 + t.val) * 1 + z.val
    omega)

/-! ## Unit axes dropped and added -/

theorem drop_mid_1024 (x : S4x1x1024.Idx → α) (h : S4x1x1024.ShapeCasts S4x1024) (p : Fin 4) (k : Fin 1024) :
    shapeCast S4x1024 x h (ix2 p k) = x (ix3 p (0 : Fin 1) k) :=
  shapeCast_apply x h _ _ (by
    rw [Shape.rowMajor_val_three, Shape.rowMajor_val_two]
    show (p.val * 1 + 0) * 1024 + k.val = p.val * 1024 + k.val
    omega)

theorem add_mid_10 (x : S4x10.Idx → α) (h : S4x10.ShapeCasts S4x1x10) (p : Fin 4) (z : Fin 1) (u : Fin 10) :
    shapeCast S4x1x10 x h (ix3 p z u) = x (ix2 p u) :=
  shapeCast_apply x h _ _ (by
    have hz : z.val = 0 := by omega
    rw [Shape.rowMajor_val_three, Shape.rowMajor_val_two]
    show p.val * 10 + u.val = (p.val * 1 + z.val) * 10 + u.val
    omega)

theorem add_mid_1 (x : S4x1.Idx → α) (h : S4x1.ShapeCasts S4x1x1) (p : Fin 4) (z z' : Fin 1) :
    shapeCast S4x1x1 x h (ix3 p z z') = x (ix2 p (0 : Fin 1)) :=
  shapeCast_apply x h _ _ (by
    have hz : z.val = 0 := by omega
    have hz' : z'.val = 0 := by omega
    rw [Shape.rowMajor_val_three, Shape.rowMajor_val_two]
    show p.val * 1 + 0 = (p.val * 1 + z.val) * 1 + z'.val
    omega)

theorem add_mid_1024 (x : S4x1024.Idx → α) (h : S4x1024.ShapeCasts S4x1x1024) (p : Fin 4) (z : Fin 1) (d : Fin 1024) :
    shapeCast S4x1x1024 x h (ix3 p z d) = x (ix2 p d) :=
  shapeCast_apply x h _ _ (by
    have hz : z.val = 0 := by omega
    rw [Shape.rowMajor_val_three, Shape.rowMajor_val_two]
    show p.val * 1024 + d.val = (p.val * 1 + z.val) * 1024 + d.val
    omega)

theorem lead_units_10 (x : S10.Idx → α) (h : S10.ShapeCasts S1x1x10) (z z' : Fin 1) (u : Fin 10) :
    shapeCast S1x1x10 x h (ix3 z z' u) = x (ix1 u) :=
  shapeCast_apply x h _ _ (by
    have hz : z.val = 0 := by omega
    have hz' : z'.val = 0 := by omega
    rw [Shape.rowMajor_val_three, Shape.rowMajor_val_one]
    show u.val = (z.val * 1 + z'.val) * 10 + u.val
    omega)

theorem lead_units_1 (x : S1.Idx → α) (h : S1.ShapeCasts S1x1x1) (z z' z'' : Fin 1) :
    shapeCast S1x1x1 x h (ix3 z z' z'') = x (ix1 (0 : Fin 1)) :=
  shapeCast_apply x h _ _ (by
    have hz : z.val = 0 := by omega
    have hz' : z'.val = 0 := by omega
    have hz'' : z''.val = 0 := by omega
    rw [Shape.rowMajor_val_three, Shape.rowMajor_val_one]
    show 0 = (z.val * 1 + z'.val) * 1 + z''.val
    omega)

/-! ## Broadcasts along time and along the features -/

theorem bcast_time_10 (x : S4x1x10.Idx → α) (h : S4x1x10.Broadcasts S4x512x10) (p : Fin 4) (t : Fin 512) (u : Fin 10) :
    broadcastTo S4x512x10 x h (ix3 p t u) = x (ix3 p (0 : Fin 1) u) :=
  broadcastTo_apply x h _ _ fun a => match a with
    | ⟨0, _⟩ => by show p.val = if (4 : Nat) = 1 then 0 else p.val; rw [if_neg (by decide)]
    | ⟨1, _⟩ => by show 0 = if (1 : Nat) = 1 then 0 else t.val; rw [if_pos rfl]
    | ⟨2, _⟩ => by show u.val = if (10 : Nat) = 1 then 0 else u.val; rw [if_neg (by decide)]

theorem bcast_time_1 (x : S4x1x1.Idx → α) (h : S4x1x1.Broadcasts S4x512x1) (p : Fin 4) (t : Fin 512) (z : Fin 1) :
    broadcastTo S4x512x1 x h (ix3 p t z) = x (ix3 p (0 : Fin 1) (0 : Fin 1)) :=
  broadcastTo_apply x h _ _ fun a => match a with
    | ⟨0, _⟩ => by show p.val = if (4 : Nat) = 1 then 0 else p.val; rw [if_neg (by decide)]
    | ⟨1, _⟩ => by show 0 = if (1 : Nat) = 1 then 0 else t.val; rw [if_pos rfl]
    | ⟨2, _⟩ => by show 0 = if (1 : Nat) = 1 then 0 else z.val; rw [if_pos rfl]

theorem bcast_all_10 (x : S1x1x10.Idx → α) (h : S1x1x10.Broadcasts S4x512x10) (p : Fin 4) (t : Fin 512) (u : Fin 10) :
    broadcastTo S4x512x10 x h (ix3 p t u) = x (ix3 (0 : Fin 1) (0 : Fin 1) u) :=
  broadcastTo_apply x h _ _ fun a => match a with
    | ⟨0, _⟩ => by show 0 = if (1 : Nat) = 1 then 0 else p.val; rw [if_pos rfl]
    | ⟨1, _⟩ => by show 0 = if (1 : Nat) = 1 then 0 else t.val; rw [if_pos rfl]
    | ⟨2, _⟩ => by show u.val = if (10 : Nat) = 1 then 0 else u.val; rw [if_neg (by decide)]

theorem bcast_all_1 (x : S1x1x1.Idx → α) (h : S1x1x1.Broadcasts S4x512x1) (p : Fin 4) (t : Fin 512) (z : Fin 1) :
    broadcastTo S4x512x1 x h (ix3 p t z) = x (ix3 (0 : Fin 1) (0 : Fin 1) (0 : Fin 1)) :=
  broadcastTo_apply x h _ _ fun a => match a with
    | ⟨0, _⟩ => by show 0 = if (1 : Nat) = 1 then 0 else p.val; rw [if_pos rfl]
    | ⟨1, _⟩ => by show 0 = if (1 : Nat) = 1 then 0 else t.val; rw [if_pos rfl]
    | ⟨2, _⟩ => by show 0 = if (1 : Nat) = 1 then 0 else z.val; rw [if_pos rfl]

theorem bcast_feat (x : S4x512x1.Idx → α) (h : S4x512x1.Broadcasts S4x512x1024) (p : Fin 4) (t : Fin 512) (d : Fin 1024) :
    broadcastTo S4x512x1024 x h (ix3 p t d) = x (ix3 p t (0 : Fin 1)) :=
  broadcastTo_apply x h _ _ fun a => match a with
    | ⟨0, _⟩ => by show p.val = if (4 : Nat) = 1 then 0 else p.val; rw [if_neg (by decide)]
    | ⟨1, _⟩ => by show t.val = if (512 : Nat) = 1 then 0 else t.val; rw [if_neg (by decide)]
    | ⟨2, _⟩ => by show 0 = if (1 : Nat) = 1 then 0 else d.val; rw [if_pos rfl]

/-! ## The lane-dense tiles -/

theorem tiles (x : S4x512x1.Idx → α) (h : S4x512x1.ShapeCasts S4x4x128) (p : Fin 4) (q : Fin 4) (l : Fin 128) :
    shapeCast S4x4x128 x h (ix3 p q l) = x (ix3 p (tstep q l) (0 : Fin 1)) :=
  shapeCast_apply x h _ _ (by
    rw [Shape.rowMajor_val_three, Shape.rowMajor_val_three]
    show (p.val * 512 + (128 * q.val + l.val)) * 1 + 0 = (p.val * 4 + q.val) * 128 + l.val
    omega)

end Cert.KernelIdeal.Pay

end
-- ==== Proof.KernelPayload.lean ====
/-
  What the kernel body computes on one block of four batch rows, entry by entry, at the ideal values.

  A block holds the annotations of four batch rows, [4, 512, 1024], their previous states [4, 1, 1024], and
  the weights. The body merges batch and time into 2048 rows for the matrix unit, so the first layer's
  pre-activation at (p, t, u) is Σ_k a (p, t, k) · wa (k, u) + Σ_k s (p, k) · wb (k, u) + b1 u, the score is the
  rectified second layer, and the softmax runs over the 512 time steps of each of the four rows. Read at an
  index, each of the body's stored values is the per-row function of `Cert.Attn` of the block's rows.
-/
import proofs.«115769_j76854144795156_2_alg».proof.Proof.Gen.KernelIdeal.Skeleton
import proofs.«115769_j76854144795156_2_alg».proof.Proof.Spec
import proofs.«115769_j76854144795156_2_alg».proof.Proof.KernelMatmul
import proofs.«115769_j76854144795156_2_alg».proof.Proof.KernelLayout

noncomputable section

namespace Cert.KernelIdeal.Pay

open Cert.KernelIdeal Cert.KernelIdeal.Gen Idealize.ShloMosaic Idealize.ShloMosaic.ValueIdx

/-! ## The three projections and the two biases -/

/-- The annotations' projection: rows merged, multiplied, split again. -/
theorem proj_rows {φ : FTy} (x0 : FVec Ideal S4x512x1024 .f32) (w : FVec Ideal S1024x10 φ)
    (h1 : S4x512x1024.ShapeCasts S2048x1024) (h2 : S2048x10.ShapeCasts S4x512x10) (p : Fin 4) (t : Fin 512) (u : Fin 10) :
    shapeCast S4x512x10 (matmul dot_S2048x1024_S1024x10_S2048x10_1_0_0_1_n_n none
        (shapeCast S2048x1024 (truncf .bf16 x0 bitsLt_bf16_f32) h1) w (constant S2048x10 .f32 0x00000000#32)) h2 (ix3 p t u)
      = ∑ k : Fin 1024, x0 (ix3 p t k) * w (ix2 k u) :=
  (split_10 _ h2 p t u).trans ((mm_rows_apply _ w (mrow p t) u).trans
    (Finset.sum_congr rfl fun k _ => congrArg (· * w (ix2 k u)) (merge_1024 _ h1 p t k)))

/-- The previous state's projection, the same for every time step. -/
theorem proj_state {φ : FTy} (x1 : FVec Ideal S4x1x1024 .f32) (w : FVec Ideal S1024x10 φ)
    (h1 : S4x1x1024.ShapeCasts S4x1024) (h2 : S4x10.ShapeCasts S4x1x10) (h3 : S4x1x10.Broadcasts S4x512x10)
    (p : Fin 4) (t : Fin 512) (u : Fin 10) :
    broadcastTo S4x512x10 (shapeCast S4x1x10 (matmul dot_S4x1024_S1024x10_S4x10_1_0_0_1_n_n none
        (shapeCast S4x1024 (truncf .bf16 x1 bitsLt_bf16_f32) h1) w (constant S4x10 .f32 0x00000000#32)) h2) h3 (ix3 p t u)
      = ∑ k : Fin 1024, x1 (ix3 p (0 : Fin 1) k) * w (ix2 k u) :=
  (bcast_time_10 _ h3 p t u).trans ((add_mid_10 _ h2 p 0 u).trans ((mm_state_apply _ w p u).trans
    (Finset.sum_congr rfl fun k _ => congrArg (· * w (ix2 k u)) (drop_mid_1024 _ h1 p k))))

/-- The first bias, the same for every row and time step. -/
theorem bias_hidden (x4 : FVec Ideal S10 .f32) (h1 : S10.ShapeCasts S1x1x10) (h2 : S1x1x10.Broadcasts S4x512x10)
    (p : Fin 4) (t : Fin 512) (u : Fin 10) :
    broadcastTo S4x512x10 (shapeCast S1x1x10 x4 h1) h2 (ix3 p t u) = x4 (ix1 u) :=
  (bcast_all_10 _ h2 p t u).trans (lead_units_10 _ h1 0 0 u)

/-- The second layer: rows merged, multiplied by the one column of weights, split again. -/
theorem proj_out {φ : FTy} (hv : FVec Ideal S4x512x10 .f32) (w : FVec Ideal S10x1 φ)
    (h1 : S4x512x10.ShapeCasts S2048x10) (h2 : S2048x1.ShapeCasts S4x512x1) (p : Fin 4) (t : Fin 512) (z : Fin 1) :
    shapeCast S4x512x1 (matmul dot_S2048x10_S10x1_S2048x1_1_0_0_1_n_n none
        (shapeCast S2048x10 (truncf .bf16 hv bitsLt_bf16_f32) h1) w (constant S2048x1 .f32 0x00000000#32)) h2 (ix3 p t z)
      = ∑ u : Fin 10, hv (ix3 p t u) * w (ix2 u z) :=
  (split_1 _ h2 p t z).trans ((mm_out_apply _ w (mrow p t) z).trans
    (Finset.sum_congr rfl fun u _ => congrArg (· * w (ix2 u z)) (merge_10 _ h1 p t u)))

/-- The second bias. -/
theorem bias_score (x6 : FVec Ideal S1 .f32) (h1 : S1.ShapeCasts S1x1x1) (h2 : S1x1x1.Broadcasts S4x512x1)
    (p : Fin 4) (t : Fin 512) (z : Fin 1) :
    broadcastTo S4x512x1 (shapeCast S1x1x1 x6 h1) h2 (ix3 p t z) = x6 (ix1 (0 : Fin 1)) :=
  (bcast_all_1 _ h2 p t z).trans (lead_units_1 _ h1 0 0 0)

/-! ## A row's maximum and sums over time -/

/-- The index a reduction over time reads at step `k`. -/
theorem lift_time_1 (h : S4x512x1.Reduces [1] S4x1) (p : Fin 4) (z : Fin 1) (k : Fin 512) :
    h.lift (ix2 p z) k = ix3 p k z :=
  funext fun a => Fin.ext (by match a with | ⟨0, _⟩ => rfl | ⟨1, _⟩ => rfl | ⟨2, _⟩ => rfl)

theorem lift_time_1024 (h : S4x512x1024.Reduces [1] S4x1024) (p : Fin 4) (d : Fin 1024) (k : Fin 512) :
    h.lift (ix2 p d) k = ix3 p k d :=
  funext fun a => Fin.ext (by match a with | ⟨0, _⟩ => rfl | ⟨1, _⟩ => rfl | ⟨2, _⟩ => rfl)

/-- A row's maximum over time, broadcast back along time. -/
theorem row_max (e : FVec Ideal S4x512x1 .f32) (h : S4x512x1.Reduces [1] S4x1) (hφ : FKind.Formats .f32)
    (hacc : (0xFF800000#32 : BitVec 32) = 0xFF800000#32)
    (h1 : S4x1.ShapeCasts S4x1x1) (h2 : S4x1x1.Broadcasts S4x512x1) (p : Fin 4) (t : Fin 512) (z : Fin 1) :
    broadcastTo S4x512x1 (shapeCast S4x1x1 (multiReduction .maximumf [1] S4x1 e 0xFF800000#32 h hφ hacc) h1) h2 (ix3 p t z)
      = Attn.rowMax fun t' => e (ix3 p t' (0 : Fin 1)) :=
  (bcast_time_1 _ h2 p t z).trans ((add_mid_1 _ h1 p 0 0).trans
    ((Ideal.multiReduction_maximumf_single e 0xFF800000#32 h hφ hacc (ix2 p (0 : Fin 1))).trans
      (congrArg (Finset.fold max (Attn.negInf) · Finset.univ) (funext fun k => congrArg e (lift_time_1 h p 0 k)))))

/-- A row's sum over time, broadcast back along time. -/
theorem row_sum (e : FVec Ideal S4x512x1 .f32) (h : S4x512x1.Reduces [1] S4x1) (hφ : FKind.Formats .f32)
    (hacc : (0x00000000#32 : BitVec 32) = 0x00000000#32)
    (h1 : S4x1.ShapeCasts S4x1x1) (h2 : S4x1x1.Broadcasts S4x512x1) (p : Fin 4) (t : Fin 512) (z : Fin 1) :
    broadcastTo S4x512x1 (shapeCast S4x1x1 (multiReduction .add [1] S4x1 e 0x00000000#32 h hφ hacc) h1) h2 (ix3 p t z)
      = ∑ t' : Fin 512, e (ix3 p t' (0 : Fin 1)) :=
  (bcast_time_1 _ h2 p t z).trans ((add_mid_1 _ h1 p 0 0).trans
    ((Ideal.multiReduction_add_single e 0x00000000#32 h hφ hacc (ix2 p (0 : Fin 1))).trans
      (Finset.sum_congr rfl fun k _ => congrArg e (lift_time_1 h p 0 k))))

/-- The weighted sum of a row's annotations over time. -/
theorem weighted_sum (w : FVec Ideal S4x512x1 .f32) (x0 : FVec Ideal S4x512x1024 .f32) (h : S4x512x1024.Reduces [1] S4x1024)
    (hφ : FKind.Formats .f32) (hacc : (0x00000000#32 : BitVec 32) = 0x00000000#32)
    (h1 : S4x512x1.Broadcasts S4x512x1024) (h2 : S4x1024.ShapeCasts S4x1x1024) (p : Fin 4) (z : Fin 1) (d : Fin 1024) :
    shapeCast S4x1x1024 (multiReduction .add [1] S4x1024 (mulf (broadcastTo S4x512x1024 w h1) x0) 0x00000000#32 h hφ hacc) h2 (ix3 p z d)
      = ∑ t : Fin 512, w (ix3 p t (0 : Fin 1)) * x0 (ix3 p t d) :=
  (add_mid_1024 _ h2 p z d).trans
    ((Ideal.multiReduction_add_single _ 0x00000000#32 h hφ hacc (ix2 p d)).trans
      (Finset.sum_congr rfl fun k _ => (congrArg (mulf (broadcastTo S4x512x1024 w h1) x0) (lift_time_1024 h p d k)).trans
        (congrArg (· * x0 (ix3 p k d)) (bcast_feat w h1 p k d))))

end Cert.KernelIdeal.Pay

end
-- ==== Proof.KernelBlock.lean ====
/-
  The body's stored values on one block, entry by entry: the shifted exponentials of a row's scores, the
  attention weights, their lane-dense tiles, and the context vectors — each the per-row function of `Cert.Attn`
  applied to the block's rows.
-/
import proofs.«115769_j76854144795156_2_alg».proof.Proof.KernelPayload

noncomputable section

namespace Cert.KernelIdeal.Pay

open Cert.KernelIdeal Cert.KernelIdeal.Gen Idealize.ShloMosaic Idealize.ShloMosaic.ValueIdx

/-- Row `p` of a block's annotations. -/
abbrev blkA (x0 : Vec Ideal S4x512x1024 .f32) (p : Fin 4) : Fin 512 → Fin 1024 → EReal := fun t k => x0 (ix3 p t k)

/-- The scores of row `p` of a block, from the block's seven inputs. -/
abbrev blkScores (x0 : Vec Ideal S4x512x1024 .f32) (x1 : Vec Ideal S4x1x1024 .f32) (x2 x3 : Vec Ideal S1024x10 .bf16)
    (x4 : Vec Ideal S10 .f32) (x5 : Vec Ideal S10x1 .bf16) (x6 : Vec Ideal S1 .f32) (p : Fin 4) : Fin 512 → EReal :=
  Attn.score (blkA x0 p) (fun k => x1 (ix3 p (0 : Fin 1) k)) (fun k u => x2 (ix2 k u)) (fun k u => x3 (ix2 k u))
    (fun u => x4 (ix1 u)) (fun u => x5 (ix2 u (0 : Fin 1))) (x6 (ix1 (0 : Fin 1)))

/-- The body's `exp (e − max e)` at (p, t) is the shifted exponential of row p's scores. -/
theorem pay4_apply (x0 : Vec Ideal S4x512x1024 .f32) (x1 : Vec Ideal S4x1x1024 .f32) (x2 x3 : Vec Ideal S1024x10 .bf16)
    (x4 : Vec Ideal S10 .f32) (x5 : Vec Ideal S10x1 .bf16) (x6 : Vec Ideal S1 .f32) (p : Fin 4) (t : Fin 512) (z : Fin 1) :
    k0_pay4 x0 x1 x2 x3 x4 x5 x6 (ix3 p t z) = Attn.expShift (blkScores x0 x1 x2 x3 x4 x5 x6 p) t := by
  obtain rfl : z = 0 := Subsingleton.elim _ _
  unfold k0_pay4
  dsimp only
  generalize hE : Idealize.ShloMosaic.maximumf (F := Ideal) (s := S4x512x1) (φ := .f32) (Idealize.ShloMosaic.addf _ _) (broadcast S4x512x1 _) = E
  have hs : ∀ t' : Fin 512, E (ix3 p t' (0 : Fin 1)) = blkScores x0 x1 x2 x3 x4 x5 x6 p t' := by
    intro t'
    rw [← hE]
    simp only [Idealize.ShloMosaic.maximumf, Idealize.ShloMosaic.addf, Idealize.ShloMosaic.tanh, broadcast, shapeCast_self,
      proj_out, bias_score, proj_rows, proj_state, bias_hidden]
    rfl
  refine (congrArg FloatOps.exp (congrArg₂ FloatOps.subf (hs t) ((row_max E _ _ _ _ _ p t 0).trans ?_))).trans rfl
  exact congrArg Attn.rowMax (funext hs)

/-- The body's quotient at (p, t): the entry over the row's sum over time. -/
theorem pay1_apply (v : FVec Ideal S4x512x1 .f32) (p : Fin 4) (t : Fin 512) (z : Fin 1) :
    k0_pay1 v (ix3 p t z) = Ideal.div (v (ix3 p t z)) (∑ t' : Fin 512, v (ix3 p t' (0 : Fin 1))) := by
  unfold k0_pay1
  dsimp only
  exact congrArg (Ideal.div (v (ix3 p t z))) (row_sum v _ _ _ _ _ p t z)

/-- So the body's attention weights at (p, t) are the softmax of row p's scores. -/
theorem weights_apply (x0 : Vec Ideal S4x512x1024 .f32) (x1 : Vec Ideal S4x1x1024 .f32) (x2 x3 : Vec Ideal S1024x10 .bf16)
    (x4 : Vec Ideal S10 .f32) (x5 : Vec Ideal S10x1 .bf16) (x6 : Vec Ideal S1 .f32) (p : Fin 4) (t : Fin 512) (z : Fin 1) :
    k0_pay1 (k0_pay4 x0 x1 x2 x3 x4 x5 x6) (ix3 p t z) = Attn.weight (blkScores x0 x1 x2 x3 x4 x5 x6 p) t := by
  rw [pay1_apply]
  unfold Attn.weight
  simp only [pay4_apply]

/-- The lane-dense tile entry (q, l) is the weight at time step 128 q + l. -/
theorem pay3_apply (v : FVec Ideal S4x512x1 .f32) (p : Fin 4) (q : Fin 4) (l : Fin 128) :
    k0_pay3 v (ix3 p q l) = k0_pay1 v (ix3 p (tstep q l) (0 : Fin 1)) := by
  unfold k0_pay3
  exact tiles _ _ p q l

/-- The stored context entry (p, d): the weights' combination of row p's annotations. -/
theorem pay2_apply (v0 : Vec Ideal S4x512x1024 .f32) (v : FVec Ideal S4x512x1 .f32) (p : Fin 4) (z : Fin 1) (d : Fin 1024) :
    k0_pay2 v0 v (ix3 p z d) = ∑ t : Fin 512, k0_pay1 v (ix3 p t (0 : Fin 1)) * v0 (ix3 p t d) := by
  unfold k0_pay2
  dsimp only
  exact weighted_sum (k0_pay1 v) v0 _ _ _ _ _ p z d

end Cert.KernelIdeal.Pay

end
-- ==== Proof.KernelInputs.lean ====
/-
  What the kernel's body finds in its input blocks, at the ideal values: block `t` of the annotations is batch
  rows 4 t … 4 t + 3, likewise the previous states; the weights and biases are whole at every point. The two
  halves of the first layer's weights are rows 0 … 1023 and 1024 … 2047 of the argument (the rounding to bf16
  is the identity here), and the previous states gain a unit axis.
-/
import proofs.«115769_j76854144795156_2_alg».proof.Proof.Gen.KernelIdeal.Frame
import proofs.«115769_j76854144795156_2_alg».proof.Proof.Spec
import Idealize.ShloMosaic.Lib.Pipeline.Value
import Idealize.ShloMosaic.Lib.StableHlo.Run
import Idealize.ShloMosaic.Lib.Tactic

noncomputable section

namespace Cert.KernelIdeal.Arr

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

/-- Batch row 4 t + p: row p of block t. -/
abbrev brow (t : Fin cfg0.N) (p : Fin 4) : Fin 64 := ⟨4 * t.val + p.val, by have := t.isLt; have := N_0; have : cfg0.N = grid0.N := rfl; omega⟩

/-- The printed index maps, decided once over the sixteen points: the annotations', the states' and both results'
    blocks move with the point along the batch axis; the weights' and biases' stay at the origin. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0) :=
  (by decide +kernel : ∀ t : Fin grid0.N, _)

/-! ## The input blocks read at coordinates -/

theorem blk0_apply (c : Dev nD) (t : Fin cfg0.N) (p : Fin 4) (tt : Fin 512) (k : Fin 1024) :
    (iblk m c 0 t : Vec Ideal S4x512x1024 .f32) (ix3 p tt k) = (V m c main_arg0 : S64x512x1024.Idx → EReal) (ix3 (brow t p) tt k) := by
  obtain ⟨⟨h0, h1, h2⟩, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 4 + 1 * p.val = 4 * t.val + p.val; rw [h0]; omega
  | ⟨1, _⟩ => show win0_0.index t (1 : Fin 3) * 512 + 1 * tt.val = tt.val; rw [h1]; omega
  | ⟨2, _⟩ => show win0_0.index t (2 : Fin 3) * 1024 + 1 * k.val = k.val; rw [h2]; omega

theorem blk1_apply (c : Dev nD) (t : Fin cfg0.N) (p : Fin 4) (z : Fin 1) (k : Fin 1024) :
    (iblk m c 1 t : Vec Ideal S4x1x1024 .f32) (ix3 p z k) = (V m c main_v5 : S64x1x1024.Idx → EReal) (ix3 (brow t p) z k) := by
  obtain ⟨-, ⟨h0, h1, h2⟩, -⟩ := idx_facts t
  unfold iblk
  rw [View.read_apply]
  show V m c main_v5 _ = V m c main_v5 _
  refine congrArg (V m c main_v5) (funext fun a => Fin.ext ?_)
  match a with
  | ⟨0, _⟩ => show win0_1.index t (0 : Fin 3) * 4 + 1 * p.val = 4 * t.val + p.val; rw [h0]; omega
  | ⟨1, _⟩ => show win0_1.index t (1 : Fin 3) * 1 + 1 * z.val = z.val; rw [h1]; omega
  | ⟨2, _⟩ => show win0_1.index t (2 : Fin 3) * 1024 + 1 * k.val = k.val; rw [h2]; omega

theorem blk2_eq (c : Dev nD) (t : Fin cfg0.N) : (iblk m c 2 t : Vec Ideal S1024x10 .bf16) = V m c main_v1 := by
  obtain ⟨-, -, ⟨h0, h1⟩, -⟩ := idx_facts t
  funext j
  unfold iblk
  rw [View.read_apply]
  show V m c main_v1 _ = V m c main_v1 _
  refine congrArg (V m c main_v1) (funext fun a => Fin.ext ?_)
  match a with
  | ⟨0, _⟩ => show win0_2.index t (0 : Fin 2) * 1024 + 1 * (j 0).val = (j 0).val; rw [h0]; omega
  | ⟨1, _⟩ => show win0_2.index t (1 : Fin 2) * 10 + 1 * (j 1).val = (j 1).val; rw [h1]; omega

theorem blk3_eq (c : Dev nD) (t : Fin cfg0.N) : (iblk m c 3 t : Vec Ideal S1024x10 .bf16) = V m c main_v3 := by
  obtain ⟨-, -, -, ⟨h0, h1⟩, -⟩ := idx_facts t
  funext j
  unfold iblk
  rw [View.read_apply]
  show V m c main_v3 _ = V m c main_v3 _
  refine congrArg (V m c main_v3) (funext fun a => Fin.ext ?_)
  match a with
  | ⟨0, _⟩ => show win0_3.index t (0 : Fin 2) * 1024 + 1 * (j 0).val = (j 0).val; rw [h0]; omega
  | ⟨1, _⟩ => show win0_3.index t (1 : Fin 2) * 10 + 1 * (j 1).val = (j 1).val; rw [h1]; omega

theorem blk4_eq (c : Dev nD) (t : Fin cfg0.N) : (iblk m c 4 t : Vec Ideal S10 .f32) = V m c main_arg3 := by
  obtain ⟨-, -, -, -, h0, -⟩ := idx_facts t
  funext j
  unfold iblk
  rw [View.read_apply]
  show V m c main_arg3 _ = V m c main_arg3 _
  refine congrArg (V m c main_arg3) (funext fun a => Fin.ext ?_)
  match a with
  | ⟨0, _⟩ => show win0_4.index t (0 : Fin 1) * 10 + 1 * (j 0).val = (j 0).val; rw [h0]; omega

theorem blk5_eq (c : Dev nD) (t : Fin cfg0.N) : (iblk m c 5 t : Vec Ideal S10x1 .bf16) = V m c main_v4 := by
  obtain ⟨-, -, -, -, -, ⟨h0, h1⟩, -⟩ := idx_facts t
  funext j
  unfold iblk
  rw [View.read_apply]
  show V m c main_v4 _ = V m c main_v4 _
  refine congrArg (V m c main_v4) (funext fun a => Fin.ext ?_)
  match a with
  | ⟨0, _⟩ => show win0_5.index t (0 : Fin 2) * 10 + 1 * (j 0).val = (j 0).val; rw [h0]; omega
  | ⟨1, _⟩ => show win0_5.index t (1 : Fin 2) * 1 + 1 * (j 1).val = (j 1).val; rw [h1]; omega

theorem blk6_eq (c : Dev nD) (t : Fin cfg0.N) : (iblk m c 6 t : Vec Ideal S1 .f32) = V m c main_arg5 := by
  obtain ⟨-, -, -, -, -, -, h0, -⟩ := idx_facts t
  funext j
  unfold iblk
  rw [View.read_apply]
  show V m c main_arg5 _ = V m c main_arg5 _
  refine congrArg (V m c main_arg5) (funext fun a => Fin.ext ?_)
  match a with
  | ⟨0, _⟩ => show win0_6.index t (0 : Fin 1) * 1 + 1 * (j 0).val = (j 0).val; rw [h0]; omega

/-! ## What the host wrote before the launch -/

theorem V_v1 (c : Dev nD) : (V m c main_v1 : S1024x10.Idx → EReal)
    = truncf (F := Ideal) (φ := .f32) .bf16 (extractStridedSlice S1024x10 ![0, 0] (m ((c : Thread nD τ).loc main_arg2) : S2048x10.Idx → EReal) slices_S2048x10_S1024x10_0_0) bitsLt_bf16_f32 := by
  show StableHlo.after hostOps0 (fun b => m (c, b)) (Proc.devRef .tc main_v1) = _
  after_results <;> rfl

theorem V_v3 (c : Dev nD) : (V m c main_v3 : S1024x10.Idx → EReal)
    = truncf (F := Ideal) (φ := .f32) .bf16 (extractStridedSlice S1024x10 ![1024, 0] (m ((c : Thread nD τ).loc main_arg2) : S2048x10.Idx → EReal) slices_S2048x10_S1024x10_1024_0) bitsLt_bf16_f32 := by
  show StableHlo.after hostOps0 (fun b => m (c, b)) (Proc.devRef .tc main_v3) = _
  after_results <;> rfl

theorem V_v4 (c : Dev nD) : (V m c main_v4 : S10x1.Idx → EReal)
    = truncf (F := Ideal) (φ := .f32) .bf16 (m ((c : Thread nD τ).loc main_arg4) : S10x1.Idx → EReal) bitsLt_bf16_f32 := by
  show StableHlo.after hostOps0 (fun b => m (c, b)) (Proc.devRef .tc main_v4) = _
  after_results <;> rfl

theorem V_v5 (c : Dev nD) : (V m c main_v5 : S64x1x1024.Idx → EReal)
    = shapeCast S64x1x1024 (m ((c : Thread nD τ).loc main_arg1) : S64x1024.Idx → EReal) shapeCasts_S64x1024_S64x1x1024 := by
  show StableHlo.after hostOps0 (fun b => m (c, b)) (Proc.devRef .tc main_v5) = _
  after_results <;> rfl

/-! ## The same, entry by entry, in the rows of `Cert.Attn` -/

section Entries
variable (c : Dev nD)

/-- The six argument arrays of core `c`, as the launch memory holds them. -/
abbrev argA : S64x512x1024.Idx → EReal := m ((c : Thread nD τ).loc main_arg0)
abbrev argS : S64x1024.Idx → EReal := m ((c : Thread nD τ).loc main_arg1)
abbrev argW1 : S2048x10.Idx → EReal := m ((c : Thread nD τ).loc main_arg2)
abbrev argB1 : S10.Idx → EReal := m ((c : Thread nD τ).loc main_arg3)
abbrev argW2 : S10x1.Idx → EReal := m ((c : Thread nD τ).loc main_arg4)
abbrev argB2 : S1.Idx → EReal := m ((c : Thread nD τ).loc main_arg5)

theorem annot_apply (t : Fin cfg0.N) (p : Fin 4) (tt : Fin 512) (k : Fin 1024) :
    (iblk m c 0 t : Vec Ideal S4x512x1024 .f32) (ix3 p tt k) = Attn.rowA (argA m c) (brow t p) tt k := by
  rw [blk0_apply, V_main_arg0]

theorem state_apply (t : Fin cfg0.N) (p : Fin 4) (z : Fin 1) (k : Fin 1024) :
    (iblk m c 1 t : Vec Ideal S4x1x1024 .f32) (ix3 p z k) = Attn.rowS (argS m c) (brow t p) k := by
  rw [blk1_apply, V_v5]
  exact shapeCast_apply (s := S64x1024) (t := S64x1x1024) (argS m c) shapeCasts_S64x1024_S64x1x1024 (ix3 (brow t p) z k) (ix2 (brow t p) k) (by
    have hz : z.val = 0 := by omega
    rw [Shape.rowMajor_val_three, Shape.rowMajor_val_two]
    show (4 * t.val + p.val) * 1024 + k.val = ((4 * t.val + p.val) * 1 + z.val) * 1024 + k.val
    omega)

theorem w1a_apply (t : Fin cfg0.N) (k : Fin 1024) (u : Fin 10) :
    (iblk m c 2 t : Vec Ideal S1024x10 .bf16) (ix2 k u) = Attn.w1Top (argW1 m c) k u := by
  rw [blk2_eq, V_v1]
  show extractStridedSlice S1024x10 ![0, 0] (argW1 m c) slices_S2048x10_S1024x10_0_0 (ix2 k u) = _
  exact extractStridedSlice_apply (s := S2048x10) (t := S1024x10) ![0, 0] (argW1 m c) slices_S2048x10_S1024x10_0_0 (ix2 k u) (ix2 (⟨k.val, by omega⟩ : Fin 2048) u) fun a => match a with
    | ⟨0, _⟩ => by show k.val = 0 + k.val; omega
    | ⟨1, _⟩ => by show u.val = 0 + u.val; omega

theorem w1b_apply (t : Fin cfg0.N) (k : Fin 1024) (u : Fin 10) :
    (iblk m c 3 t : Vec Ideal S1024x10 .bf16) (ix2 k u) = Attn.w1Bot (argW1 m c) k u := by
  rw [blk3_eq, V_v3]
  show extractStridedSlice S1024x10 ![1024, 0] (argW1 m c) slices_S2048x10_S1024x10_1024_0 (ix2 k u) = _
  exact extractStridedSlice_apply (s := S2048x10) (t := S1024x10) ![1024, 0] (argW1 m c) slices_S2048x10_S1024x10_1024_0 (ix2 k u) (ix2 (⟨1024 + k.val, by omega⟩ : Fin 2048) u) fun a => match a with
    | ⟨0, _⟩ => by show 1024 + k.val = 1024 + k.val; rfl
    | ⟨1, _⟩ => by show u.val = 0 + u.val; omega

theorem b1_apply (t : Fin cfg0.N) (u : Fin 10) :
    (iblk m c 4 t : Vec Ideal S10 .f32) (ix1 u) = argB1 m c (ix1 u) := by
  rw [blk4_eq, V_main_arg3]

theorem w2_apply (t : Fin cfg0.N) (u : Fin 10) (z : Fin 1) :
    (iblk m c 5 t : Vec Ideal S10x1 .bf16) (ix2 u z) = argW2 m c (ix2 u z) := by
  rw [blk5_eq, V_v4]
  rfl

theorem b2_apply (t : Fin cfg0.N) (z : Fin 1) :
    (iblk m c 6 t : Vec Ideal S1 .f32) (ix1 z) = argB2 m c (ix1 z) := by
  rw [blk6_eq, V_main_arg5]

end Entries

end Cert.KernelIdeal.Arr

end
-- ==== Proof.KernelOutputs.lean ====
/-
  The two result arrays after the kernel's run, at the ideal values. Point `t` writes back rows 4 t … 4 t + 3 of
  the context vectors and of the lane-dense attention weights; each written block is the restriction of one
  whole-array function of the arguments (`Cert.Attn.ctxArr`, `Cert.Attn.attnTiles`), and the sixteen blocks cover
  the arrays. The host's reshape after the launch lays the weights out as [64, 512, 1].
-/
import proofs.«115769_j76854144795156_2_alg».proof.Proof.KernelBlock
import proofs.«115769_j76854144795156_2_alg».proof.Proof.KernelInputs

noncomputable section

namespace Cert.KernelIdeal.Arr

open Cert.KernelIdeal Cert.KernelIdeal.Gen Cert.KernelIdeal.Pay Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## What the body leaves in the two output blocks -/

theorem out7_apply (x0 : Vec Ideal S4x512x1024 .f32) (x1 : Vec Ideal S4x1x1024 .f32) (x2 x3 : Vec Ideal S1024x10 .bf16)
    (x4 : Vec Ideal S10 .f32) (x5 : Vec Ideal S10x1 .bf16) (x6 : Vec Ideal S1 .f32) (p : Fin 4) (z : Fin 1) (d : Fin 1024) :
    out0_7 x0 x1 x2 x3 x4 x5 x6 (ix3 p z d) = Attn.context (blkScores x0 x1 x2 x3 x4 x5 x6 p) (blkA x0 p) d := by
  unfold out0_7
  rw [View.canon_unit_zero hz3]
  simp only [View.ld_unit_zero (S := S4x512x1024) hz3, View.ld_unit_zero (S := S4x1x1024) hz3, View.ld_unit_zero (S := S1024x10) hz2,
    View.ld_unit_zero (S := S10) hz1, View.ld_unit_zero (S := S10x1) hz2, View.ld_unit_zero (S := S1) hz1]
  rw [pay2_apply]
  unfold Attn.context
  simp only [weights_apply]

theorem out8_apply (x0 : Vec Ideal S4x512x1024 .f32) (x1 : Vec Ideal S4x1x1024 .f32) (x2 x3 : Vec Ideal S1024x10 .bf16)
    (x4 : Vec Ideal S10 .f32) (x5 : Vec Ideal S10x1 .bf16) (x6 : Vec Ideal S1 .f32) (p : Fin 4) (q : Fin 4) (l : Fin 128) :
    out0_8 x0 x1 x2 x3 x4 x5 x6 (ix3 p q l) = Attn.weight (blkScores x0 x1 x2 x3 x4 x5 x6 p) (tstep q l) := by
  unfold out0_8
  rw [View.canon_unit_zero hz3]
  simp only [View.ld_unit_zero (S := S4x512x1024) hz3, View.ld_unit_zero (S := S4x1x1024) hz3, View.ld_unit_zero (S := S1024x10) hz2,
    View.ld_unit_zero (S := S10) hz1, View.ld_unit_zero (S := S10x1) hz2, View.ld_unit_zero (S := S1) hz1]
  rw [pay3_apply, weights_apply]

/-! ## A block's rows are the arguments' rows -/

theorem blk_rows_eq (c : Dev nD) (t : Fin cfg0.N) (p : Fin 4) :
    blkA (iblk m c 0 t) p = Attn.rowA (argA m c) (brow t p) :=
  funext fun tt => funext fun k => annot_apply m c t p tt k

theorem blk_scores_eq (c : Dev nD) (t : Fin cfg0.N) (p : Fin 4) :
    blkScores (iblk m c 0 t) (iblk m c 1 t) (iblk m c 2 t) (iblk m c 3 t) (iblk m c 4 t) (iblk m c 5 t) (iblk m c 6 t) p
      = Attn.scores (argA m c) (argS m c) (argW1 m c) (argB1 m c) (argW2 m c) (argB2 m c) (brow t p) := by
  unfold Attn.scores
  exact congr (congr (congr (congr (congr (congr (congrArg Attn.score (blk_rows_eq m c t p))
    (funext fun k => state_apply m c t p 0 k))
    (funext fun k => funext fun u => w1a_apply m c t k u))
    (funext fun k => funext fun u => w1b_apply m c t k u))
    (funext fun u => b1_apply m c t u))
    (funext fun u => w2_apply m c t u 0))
    (b2_apply m c t 0)

/-! ## The context vectors: what each point writes back, and the array after the run -/

/-- The context vectors as a function of core `c`'s arguments. -/
abbrev ctxOf (c : Dev nD) : S64x1x1024.Idx → EReal :=
  Attn.ctxArr (argA m c) (argS m c) (argW1 m c) (argB1 m c) (argW2 m c) (argB2 m c)
/-- The lane-dense attention weights as a function of core `c`'s arguments. -/
abbrev tilesOf (c : Dev nD) : S64x4x128.Idx → EReal :=
  Attn.attnTiles (argA m c) (argS m c) (argW1 m c) (argB1 m c) (argW2 m c) (argB2 m c)
/-- The attention weights, [64, 512, 1]. -/
abbrev attnOf (c : Dev nD) : S64x512x1.Idx → EReal :=
  Attn.attnArr (argA m c) (argS m c) (argW1 m c) (argB1 m c) (argW2 m c) (argB2 m c)

/-- Point `t` writes back rows 4 t … 4 t + 3 of the context vectors. -/
theorem flushed7_eq (c : Dev nD) (t : Fin cfg0.N) :
    (dats m 0 c).flushed 7 t = ((cfg0.win 7).blk t).view.read (Elt Ideal) (ctxOf m c) := by
  obtain ⟨-, -, -, -, -, -, -, ⟨h0, h1, h2⟩, -⟩ := idx_facts t
  show (cfg0.win 7).cut (grid0.coords t) ((dats m 0 c).after 7 t) = _
  rw [after0_7]
  funext y
  obtain ⟨p, z, d, rfl⟩ : ∃ (p : Fin 4) (z : Fin 1) (d : Fin 1024), y = ix3 p z d := ⟨y 0, y 1, y 2, eq_ix3 y⟩
  show out0_7 (iblk m c 0 t) (iblk m c 1 t) (iblk m c 2 t) (iblk m c 3 t) (iblk m c 4 t) (iblk m c 5 t) (iblk m c 6 t) (ix3 p z d)
    = ctxOf m c (((cfg0.win 7).blk t).view.emb (ix3 p z d))
  have hemb : ((cfg0.win 7).blk t).view.emb (ix3 p z d) = ix3 (brow t p) z d :=
    funext fun a => Fin.ext (by
      match a with
      | ⟨0, _⟩ => show win0_7.index t (0 : Fin 3) * 4 + 1 * p.val = 4 * t.val + p.val; rw [h0]; omega
      | ⟨1, _⟩ => show win0_7.index t (1 : Fin 3) * 1 + 1 * z.val = z.val; rw [h1]; omega
      | ⟨2, _⟩ => show win0_7.index t (2 : Fin 3) * 1024 + 1 * d.val = d.val; rw [h2]; omega)
  rw [hemb]
  refine (out7_apply _ _ _ _ _ _ _ p z d).trans ?_
  rw [blk_scores_eq, blk_rows_eq]
  rfl

/-- An index is in point `t`'s block iff each coordinate is in the block's range. -/
theorem mem_blk7 (t : Fin cfg0.N) (i : S64x1x1024.Idx) :
    i ∈ ((cfg0.win 7).blk t).view.set ↔ ∀ a : Fin 3, win0_7.index t a * S4x1x1024.size a ≤ (i a).val ∧ (i a).val < win0_7.index t a * S4x1x1024.size a + S4x1x1024.size a := by
  show i ∈ ((View.whole main_v6_0).slice (win0_7.rect t)).set ↔ _
  rw [View.set_slice_whole, Rect.mem_set_unit]
  exact Iff.rfl

/-- Batch row `b` is written by point `b / 4`. -/
theorem cover7 (i : S64x1x1024.Idx) : ∃ t : Fin cfg0.N, (cfg0.win 7).flush t = true ∧ i ∈ ((cfg0.win 7).blk t).view.set := by
  have hi0 : (i 0).val < 64 := (i 0).isLt
  have hi1 : (i 1).val < 1 := (i 1).isLt
  have hi2 : (i 2).val < 1024 := (i 2).isLt
  have hN : cfg0.N = 16 := N_0
  obtain ⟨t, ht⟩ : ∃ t : Fin cfg0.N, t.val = (i 0).val / 4 := ⟨⟨(i 0).val / 4, by omega⟩, rfl⟩
  obtain ⟨-, -, -, -, -, -, -, ⟨h0, h1, h2⟩, -⟩ := idx_facts t
  refine ⟨t, flush0_7 t, ?_⟩
  rw [mem_blk7]
  intro a
  match a with
  | ⟨0, _⟩ => show win0_7.index t (0 : Fin 3) * 4 ≤ (i 0).val ∧ (i 0).val < win0_7.index t (0 : Fin 3) * 4 + 4; rw [h0]; omega
  | ⟨1, _⟩ => show win0_7.index t (1 : Fin 3) * 1 ≤ (i 1).val ∧ (i 1).val < win0_7.index t (1 : Fin 3) * 1 + 1; rw [h1]; omega
  | ⟨2, _⟩ => show win0_7.index t (2 : Fin 3) * 1024 ≤ (i 2).val ∧ (i 2).val < win0_7.index t (2 : Fin 3) * 1024 + 1024; rw [h2]; omega

/-- The context array after the run. -/
theorem final7 (c : Dev nD) : (dats m 0 c).arrAt 7 cfg0.N = ctxOf m c :=
  (dats m 0 c).arrAt_eq_of_cover 7 (ctxOf m c) (fun t _ => flushed7_eq m c t) cover7

/-! ## The lane-dense attention weights -/

/-- Point `t` writes back rows 4 t … 4 t + 3 of the lane-dense weights. -/
theorem flushed8_eq (c : Dev nD) (t : Fin cfg0.N) :
    (dats m 0 c).flushed 8 t = ((cfg0.win 8).blk t).view.read (Elt Ideal) (tilesOf m c) := by
  obtain ⟨-, -, -, -, -, -, -, -, ⟨h0, h1, h2⟩⟩ := idx_facts t
  show (cfg0.win 8).cut (grid0.coords t) ((dats m 0 c).after 8 t) = _
  rw [after0_8]
  funext y
  obtain ⟨p, q, l, rfl⟩ : ∃ (p : Fin 4) (q : Fin 4) (l : Fin 128), y = ix3 p q l := ⟨y 0, y 1, y 2, eq_ix3 y⟩
  show out0_8 (iblk m c 0 t) (iblk m c 1 t) (iblk m c 2 t) (iblk m c 3 t) (iblk m c 4 t) (iblk m c 5 t) (iblk m c 6 t) (ix3 p q l)
    = tilesOf m c (((cfg0.win 8).blk t).view.emb (ix3 p q l))
  have hemb : ((cfg0.win 8).blk t).view.emb (ix3 p q l) = ix3 (brow t p) q l :=
    funext fun a => Fin.ext (by
      match a with
      | ⟨0, _⟩ => show win0_8.index t (0 : Fin 3) * 4 + 1 * p.val = 4 * t.val + p.val; rw [h0]; omega
      | ⟨1, _⟩ => show win0_8.index t (1 : Fin 3) * 4 + 1 * q.val = q.val; rw [h1]; omega
      | ⟨2, _⟩ => show win0_8.index t (2 : Fin 3) * 128 + 1 * l.val = l.val; rw [h2]; omega)
  rw [hemb]
  refine (out8_apply _ _ _ _ _ _ _ p q l).trans ?_
  rw [blk_scores_eq]
  rfl

theorem mem_blk8 (t : Fin cfg0.N) (i : S64x4x128.Idx) :
    i ∈ ((cfg0.win 8).blk t).view.set ↔ ∀ a : Fin 3, win0_8.index t a * S4x4x128.size a ≤ (i a).val ∧ (i a).val < win0_8.index t a * S4x4x128.size a + S4x4x128.size a := by
  show i ∈ ((View.whole main_v6_1).slice (win0_8.rect t)).set ↔ _
  rw [View.set_slice_whole, Rect.mem_set_unit]
  exact Iff.rfl

theorem cover8 (i : S64x4x128.Idx) : ∃ t : Fin cfg0.N, (cfg0.win 8).flush t = true ∧ i ∈ ((cfg0.win 8).blk t).view.set := by
  have hi0 : (i 0).val < 64 := (i 0).isLt
  have hi1 : (i 1).val < 4 := (i 1).isLt
  have hi2 : (i 2).val < 128 := (i 2).isLt
  have hN : cfg0.N = 16 := N_0
  obtain ⟨t, ht⟩ : ∃ t : Fin cfg0.N, t.val = (i 0).val / 4 := ⟨⟨(i 0).val / 4, by omega⟩, rfl⟩
  obtain ⟨-, -, -, -, -, -, -, -, ⟨h0, h1, h2⟩⟩ := idx_facts t
  refine ⟨t, flush0_8 t, ?_⟩
  rw [mem_blk8]
  intro a
  match a with
  | ⟨0, _⟩ => show win0_8.index t (0 : Fin 3) * 4 ≤ (i 0).val ∧ (i 0).val < win0_8.index t (0 : Fin 3) * 4 + 4; rw [h0]; omega
  | ⟨1, _⟩ => show win0_8.index t (1 : Fin 3) * 4 ≤ (i 1).val ∧ (i 1).val < win0_8.index t (1 : Fin 3) * 4 + 4; rw [h1]; omega
  | ⟨2, _⟩ => show win0_8.index t (2 : Fin 3) * 128 ≤ (i 2).val ∧ (i 2).val < win0_8.index t (2 : Fin 3) * 128 + 128; rw [h2]; omega

/-- The lane-dense weights after the run. -/
theorem final8 (c : Dev nD) : (dats m 0 c).arrAt 8 cfg0.N = tilesOf m c :=
  (dats m 0 c).arrAt_eq_of_cover 8 (tilesOf m c) (fun t _ => flushed8_eq m c t) cover8

/-! ## The host's reshape after the launch -/

/-- The [64, 4, 128] tiles viewed [64, 512, 1] are the attention weights: time step t sits at tile (t / 128, t % 128). -/
theorem tail_v7 (c : Dev nD) : Pipeline.afterTail₀ cfgs (dats m) 0 (V0 m) [hostOps1] c main_v7 = attnOf m c := by
  unfold Pipeline.afterTail₀
  show StableHlo.after hostOps1 _ (Proc.devRef .tc main_v7) = _
  after_results
  funext i
  obtain ⟨b, tt, z, rfl⟩ : ∃ (b : Fin 64) (tt : Fin 512) (z : Fin 1), i = ix3 b tt z := ⟨i 0, i 1, i 2, eq_ix3 i⟩
  have hw : (Pipeline.withArrays (cfgs 0).spec c (V0 m c) (fun w => (dats m 0 c).arrAt w (cfgs 0).N)
      (Proc.tc.devRef main_v6_1) : S64x4x128.Idx → EReal) = tilesOf m c :=
    (Pipeline.withArrays_arr spec0 launch0.win.arr_inj c _ _ 8).trans (final8 m c)
  show shapeCast S64x512x1 (Pipeline.withArrays (cfgs 0).spec c (V0 m c) (fun w => (dats m 0 c).arrAt w (cfgs 0).N)
      (Proc.tc.devRef main_v6_1) : S64x4x128.Idx → EReal) shapeCasts_S64x4x128_S64x512x1 (ix3 b tt z) = _
  rw [hw]
  have hz : z.val = 0 := by omega
  refine (shapeCast_apply (s := S64x4x128) (t := S64x512x1) (tilesOf m c) shapeCasts_S64x4x128_S64x512x1 (ix3 b tt z)
    (ix3 b (⟨tt.val / 128, by omega⟩ : Fin 4) (⟨tt.val % 128, by omega⟩ : Fin 128)) ?_).trans ?_
  · rw [Shape.rowMajor_val_three, Shape.rowMajor_val_three]
    show (b.val * 4 + tt.val / 128) * 128 + tt.val % 128 = (b.val * 512 + tt.val) * 1 + z.val
    omega
  · show Attn.weight _ (⟨128 * (tt.val / 128) + tt.val % 128, _⟩ : Fin 512) = Attn.weight _ tt
    exact congrArg (Attn.weight _) (Fin.ext (by show 128 * (tt.val / 128) + tt.val % 128 = tt.val; omega))

/-! ## The run, read -/

/-- Every weakly fair execution of the idealized kernel's @main ends with the context vectors and the attention
    weights of the arguments in its two results, and the arguments unchanged. -/
theorem run : θ_run defs (onTc (τ := τ) (main (F := Ideal))) ⟨m, fun _ => 0, ρ⟩ fun r => ∀ c : Dev nD,
      r.2.mem ((c : Thread nD τ).loc main_v6_0) = ctxOf m c
      ∧ r.2.mem ((c : Thread nD τ).loc main_v7) = attnOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1 7).trans (final7 m c),
      ((h c).2 main_v7 (Pipeline.mem_restRefs_of main_v7 (by decide) (by decide))).trans (tail_v7 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 4).trans (((dats m 0 c).arrAt_in 4 rfl _).trans ((A_eq m c 4).trans (V_main_arg3 m c))),
      (((h c).2 main_arg4 (Pipeline.mem_restRefs_of main_arg4 (by decide) (by decide))).trans (W_main_arg4 m (dats m) c)),
      ((h c).1 6).trans (((dats m 0 c).arrAt_in 6 rfl _).trans ((A_eq m c 6).trans (V_main_arg5 m c)))⟩)
    (run_main m ρ)

end Cert.KernelIdeal.Arr

end
-- ==== Proof.lean ====
/-
  Additive attention: the Pallas kernel against its jnp reference, over the extended reals.

  Both programs compute, for each of 64 batch rows, the scores `relu (tanh ([a_t, s] · W1 + b1) · W2 + b2)` of the
  512 time steps, their softmax over time, and the softmax-weighted combination of the annotations. The reference
  concatenates `[a_t, s]` and contracts 2048 features at once; the kernel contracts the annotation's 1024
  features and the state's 1024 features separately and adds — the same sum, split at the seam. The kernel works
  on blocks of four batch rows, merges batch and time for the matrix unit, and stores the weights lane-dense,
  which the host reshapes back; none of this changes a value. `Cert.Attn` states the common per-row functions;
  the reference's two results are those functions of the arguments (RefValue), and so are the kernel's
  (KernelPayload, KernelBlock for a block; KernelInputs, KernelOutputs for the arrays after the run).
  The kernel's idealization rewrote nothing, so `preserves` is trivial.
-/
import proofs.«115769_j76854144795156_2_alg».proof.Defs
import proofs.«115769_j76854144795156_2_alg».proof.Proof.Gen.Kernel
import proofs.«115769_j76854144795156_2_alg».proof.Proof.Gen.Kernel.Skeleton
import proofs.«115769_j76854144795156_2_alg».proof.Proof.Gen.Kernel.Launch
import proofs.«115769_j76854144795156_2_alg».proof.Proof.Gen.Kernel.Points
import proofs.«115769_j76854144795156_2_alg».proof.Proof.Gen.Kernel.Frame
import proofs.«115769_j76854144795156_2_alg».proof.Proof.Gen.KernelIdeal
import proofs.«115769_j76854144795156_2_alg».proof.Proof.Gen.KernelIdeal.Skeleton
import proofs.«115769_j76854144795156_2_alg».proof.Proof.Gen.KernelIdeal.Launch
import proofs.«115769_j76854144795156_2_alg».proof.Proof.Gen.KernelIdeal.Points
import proofs.«115769_j76854144795156_2_alg».proof.Proof.Gen.KernelIdeal.Frame
import proofs.«115769_j76854144795156_2_alg».proof.Proof.Gen.ReferenceIdeal
import proofs.«115769_j76854144795156_2_alg».proof.Proof.Gen.Pre_finite_inputs
import proofs.«115769_j76854144795156_2_alg».proof.Proof.Gen.ReferenceIdeal.Run
import proofs.«115769_j76854144795156_2_alg».proof.Proof.Gen.ReferenceIdeal.Read
import proofs.«115769_j76854144795156_2_alg».proof.Proof.RefValue
import proofs.«115769_j76854144795156_2_alg».proof.Proof.KernelOutputs
import Idealize.ShloMosaic.Adequacy
import Idealize.ShloMosaic.Init

noncomputable section

namespace Cert.Proof.Claims

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the context vectors and the attention weights of `Cert.Attn` of arguments that agree. -/
theorem algebraic : Cert.algebraic_KernelIdeal_ReferenceIdeal := by
  intro m ρ m' ρ' _ hagree
  refine ⟨fun c => Cert.KernelIdeal.Arr.ctxOf m c, fun c => Cert.KernelIdeal.Arr.attnOf m c, Cert.KernelIdeal.Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v27_eq, Cert.ReferenceIdeal.RefValue.ctx_eq,
      (hagree c).1, (hagree c).2.1, (hagree c).2.2.1, (hagree c).2.2.2.1, (hagree c).2.2.2.2.1, (hagree c).2.2.2.2.2]
  · rw [Cert.ReferenceIdeal.Read.val_main_v23_eq, Cert.ReferenceIdeal.RefValue.attn_eq,
      (hagree c).1, (hagree c).2.1, (hagree c).2.2.1, (hagree c).2.2.2.1, (hagree c).2.2.2.2.1, (hagree c).2.2.2.2.2]

end Cert.Proof.Claims

namespace Cert.Proof

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
